-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S64x256 : S_.BroadcastsInDim S64x256 (![] : Fin 0 → Fin S64x256.rank)
  reducesTo_S64x256_S_d0_1 : S64x256.ReducesTo [0, 1] S_
  bcast_S_S64x64 : S_.BroadcastsInDim S64x64 (![] : Fin 0 → Fin S64x64.rank)
  reducesTo_S64x64_S_d0_1 : S64x64.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S64x64 .f32) (main_arg5 : FVec F S64x64 .f32) (main_arg6 : FVec F S4096x32 .f32) (main_arg7 : FVec F S4096 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x256 .f32) (main_arg2 : FVec F S65536x32 .f32) (main_arg3 : FVec F S64x256 .f32) (main_arg4 : FVec F S64x64 .f32) (main_arg5 : FVec F S64x64 .f32) (main_arg6 : FVec F S4096x32 .f32) (main_arg7 : FVec F S4096 .f32) (main_arg8 : IVec S65536 32) (main_arg9 : IVec S65536 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S65536x32 .f32 := Host.absf main_arg2
  let main_cst_2 : FVec F S_ .f32 := constant S_ .f32 0x7F800000#32
  let main_v10 : FVec F S65536x32 .f32 := broadcastInDim S65536x32 ![] bcast_S_S65536x32 main_cst_2
  let main_v11 : IVec S65536x32 1 := cmpf .olt main_v9 main_v10
  let main_c_3 : IVec S_ 1 := constantI S_ 1 1#1
  let main_v12 : IVec S_ 1 := (fun x v => Host.reduce IntOp.andi x v reducesTo_S65536x32_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_v13 main_v16
-- ==== Kernel.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S256x64 : Shape := ⟨2, ![256, 64]⟩
abbrev S8192x64 : Shape := ⟨2, ![8192, 64]⟩
abbrev S1024x256 : Shape := ⟨2, ![1024, 256]⟩
abbrev S1024x64 : Shape := ⟨2, ![1024, 64]⟩
abbrev S32x4096 : Shape := ⟨2, ![32, 4096]⟩
abbrev S1x4096 : Shape := ⟨2, ![1, 4096]⟩
abbrev S65536x64 : Shape := ⟨2, ![65536, 64]⟩
abbrev S2048x32 : Shape := ⟨2, ![2048, 32]⟩
abbrev S2048x64 : Shape := ⟨2, ![2048, 64]⟩
abbrev S32x512 : Shape := ⟨2, ![32, 512]⟩
abbrev S1x512 : Shape := ⟨2, ![1, 512]⟩
abbrev S2048x512 : Shape := ⟨2, ![2048, 512]⟩
abbrev S2048x256 : Shape := ⟨2, ![2048, 256]⟩
abbrev S2048x128 : Shape := ⟨2, ![2048, 128]⟩
abbrev S_ : Shape := ⟨0, ![]⟩
abbrev S65536x1 : Shape := ⟨2, ![65536, 1]⟩
abbrev S65536x65 : Shape := ⟨2, ![65536, 65]⟩
abbrev S8192x65 : Shape := ⟨2, ![8192, 65]⟩
abbrev S8192x1 : Shape := ⟨2, ![8192, 1]⟩

abbrev nBuf : Space → Nat
  | .hbm => 51
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S65536x32, .f32⟩
  | .hbm, ⟨3, _⟩ => ⟨S64x256, .f32⟩
  | .hbm, ⟨4, _⟩ => ⟨S64x64, .f32⟩
  | .hbm, ⟨5, _⟩ => ⟨S64x64, .f32⟩
  | .hbm, ⟨6, _⟩ => ⟨S4096x32, .f32⟩
  | .hbm, ⟨7, _⟩ => ⟨S4096, .f32⟩
  | .hbm, ⟨8, _⟩ => ⟨S65536, .i32⟩
  | .hbm, ⟨9, _⟩ => ⟨S65536, .i32⟩
  | .hbm, ⟨10, _⟩ => ⟨S8192x256, .bf16⟩
  | .hbm, ⟨11, _⟩ => ⟨S8192x256, .bf16⟩
  | .hbm, ⟨12, _⟩ => ⟨S256x64, .f32⟩
  | .hbm, ⟨13, _⟩ => ⟨S256x64, .bf16⟩
  | .hbm, ⟨14, _⟩ => ⟨S64x64, .f32⟩
  | .hbm, ⟨15, _⟩ => ⟨S64x64, .bf16⟩
  | .hbm, ⟨16, _⟩ => ⟨S8192x64, .f32⟩
  | .hbm, ⟨17, _⟩ => ⟨S8192x64, .f32⟩
  | .hbm, ⟨18, _⟩ => ⟨S65536x32, .bf16⟩
  | .hbm, ⟨19, _⟩ => ⟨S32x4096, .f32⟩
  | .hbm, ⟨20, _⟩ => ⟨S32x4096, .bf16⟩
  | .hbm, ⟨21, _⟩ => ⟨S1x4096, .f32⟩
  | .hbm, ⟨22, _⟩ => ⟨S65536x64, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536x64, .f32⟩
  | .hbm, ⟨32, _⟩ => ⟨S65536x64, .f32⟩
  | .hbm, ⟨33, _⟩ => ⟨S_, .f32⟩
  | .hbm, ⟨34, _⟩ => ⟨S65536x1, .f32⟩
  | .hbm, ⟨35, _⟩ => ⟨S65536x65, .f32⟩
  | .hbm, ⟨36, _⟩ => ⟨S_, .f32⟩
  | .hbm, ⟨37, _⟩ => ⟨S8192x65, .f32⟩
  | .hbm, ⟨38, _⟩ => ⟨S65536x1, .i32⟩
  | .hbm, ⟨39, _⟩ => ⟨S8192x65, .f32⟩
  | .hbm, ⟨40, _⟩ => ⟨S8192x64, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x64, .f32⟩
  | .hbm, ⟨46, _⟩ => ⟨S8192x64, .f32⟩
  | .hbm, ⟨47, _⟩ => ⟨S8192x64, .bf16⟩
  | .hbm, ⟨48, _⟩ => ⟨S64x64, .f32⟩
  | .hbm, ⟨49, _⟩ => ⟨S64x64, .bf16⟩
  | .hbm, ⟨50, _⟩ => ⟨S8192x64, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x64, .bf16⟩
  | .local _ .vmem, ⟨5, _⟩ => ⟨S64x64, .bf16⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S2048x32, .bf16⟩
  | .local _ .vmem, ⟨11, _⟩ => ⟨S2048x32, .bf16⟩
  | .local _ .vmem, ⟨12, _⟩ => ⟨S32x4096, .bf16⟩
  | .local _ .vmem, ⟨13, _⟩ => ⟨S1x4096, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .bf16⟩
  | .local _ .vmem, ⟨19, _⟩ => ⟨S2048x64, .bf16⟩
  | .local _ .vmem, ⟨20, _⟩ => ⟨S64x64, .bf16⟩
  | .local _ .vmem, ⟨21, _⟩ => ⟨S2048x64, .f32⟩
  | .local _ .vmem, ⟨22, _⟩ => ⟨S2048x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S64x256_S256x64_1_0 : S64x256.Transposes [1, 0] S256x64
  transposes_S64x64_S64x64_1_0 : S64x64.Transposes [1, 0] S64x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1024x64_S1024x64_0_0 : ∀ a, (![0, 0] : Fin 2 → Nat) a + S1024x64.size a ≤ S1024x64.size a
  h_S1024x64 : 0 < S1024x64.numel
  transposes_S4096x32_S32x4096_1_0 : S4096x32.Transposes [1, 0] S32x4096
  shapeCasts_S4096_S1x4096 : S4096.ShapeCasts S1x4096
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S32x4096_o0_0_S32x512 : S32x4096.Slices ![0, 0] S32x512
  slices_S1x4096_o0_0_S1x512 : S1x4096.Slices ![0, 0] S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  slices_S2048x256_o0_0_S2048x128 : S2048x256.Slices ![0, 0] S2048x128
  slices_S2048x256_o0_128_S2048x128 : S2048x256.Slices ![0, 128] S2048x128
  slices_S2048x128_o0_0_S2048x64 : S2048x128.Slices ![0, 0] S2048x64
  slices_S2048x128_o0_64_S2048x64 : S2048x128.Slices ![0, 64] S2048x64
  slices_S32x4096_o0_512_S32x512 : S32x4096.Slices ![0, 512] S32x512
  slices_S1x4096_o0_512_S1x512 : S1x4096.Slices ![0, 512] S1x512
  slices_S32x4096_o0_1024_S32x512 : S32x4096.Slices ![0, 1024] S32x512
  slices_S1x4096_o0_1024_S1x512 : S1x4096.Slices ![0, 1024] S1x512
  slices_S32x4096_o0_1536_S32x512 : S32x4096.Slices ![0, 1536] S32x512
  slices_S1x4096_o0_1536_S1x512 : S1x4096.Slices ![0, 1536] S1x512
  slices_S32x4096_o0_2048_S32x512 : S32x4096.Slices ![0, 2048] S32x512
  slices_S1x4096_o0_2048_S1x512 : S1x4096.Slices ![0, 2048] S1x512
  slices_S32x4096_o0_2560_S32x512 : S32x4096.Slices ![0, 2560] S32x512
  slices_S1x4096_o0_2560_S1x512 : S1x4096.Slices ![0, 2560] S1x512
  slices_S32x4096_o0_3072_S32x512 : S32x4096.Slices ![0, 3072] S32x512
  slices_S1x4096_o0_3072_S1x512 : S1x4096.Slices ![0, 3072] S1x512
  slices_S32x4096_o0_3584_S32x512 : S32x4096.Slices ![0, 3584] S32x512
  slices_S1x4096_o0_3584_S1x512 : S1x4096.Slices ![0, 3584] S1x512
  inb_S2048x64_S2048x64_0_0 : ∀ a, (![0, 0] : Fin 2 → Nat) a + S2048x64.size a ≤ S2048x64.size a
  h_S2048x64 : 0 < S2048x64.numel
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  concatenates_S65536x64_S65536x1_S65536x65_d1 : Shape.Concatenates [S65536x64, S65536x1] S65536x65 1
  bcast_S_S8192x65 : S_.BroadcastsInDim S8192x65 (![] : Fin 0 → Fin S8192x65.rank)
  slices_S8192x65_S8192x64_0_0 : S8192x65.Slices ![0, 0] S8192x64
  slices_S8192x65_S8192x1_0_64 : S8192x65.Slices ![0, 64] S8192x1
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  shapeCasts_S2048x64_S2048x64 : S2048x64.ShapeCasts S2048x64
  dot_S1024x256_S256x64_S1024x64_1_0_0_1_n_n_wf : DotDims.WF S1024x256 S256x64 S1024x64 [1] [0] [0] [1] [] []
  dot_S1024x64_S64x64_S1024x64_1_0_0_1_n_n_wf : DotDims.WF S1024x64 S64x64 S1024x64 [1] [0] [0] [1] [] []
  dot_S2048x32_S32x512_S2048x512_1_0_0_1_n_n_wf : DotDims.WF S2048x32 S32x512 S2048x512 [1] [0] [0] [1] [] []
  gather_S8192x64_S65536x1_S65536x64_1_0_n_n_0_1_164_wf : GatherDims.WF S8192x64 S65536x1 S65536x64 [1] [0] [] [0] [] 1 ![1, 64]
  scatter_S8192x65_S65536x1_S65536x65_1_0_0_1_wf : ScatterDims.WF S8192x65 S65536x1 S65536x65 [1] [0] [0] 1
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S65536x32.size a
  hwx1_0 : ∀ i : grid1.Coords, EltTy.bits .bf16 = 32 ∨ (Rect.block (s := S65536x32) S2048x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .bf16 = 32 ∨ (Rect.block (s := S32x4096) S32x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S65536x64.size a
  hwx1_3 : ∀ i : grid1.Coords, EltTy.bits .f32 = 32 ∨ (Rect.block (s := S65536x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .bf16 = 32 ∨ (Rect.block (s := S8192x64) S2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S8192x64.size a
  hwx2_3 : ∀ i : grid2.Coords, EltTy.bits .f32 = 32 ∨ (Rect.block (s := S8192x64) S2048x64.size (cc2_transform_3 i) (hinb2_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x65_S65536x1_S65536x65_1_0_0_1 : ScatterDims S8192x65 S65536x1 S65536x65 where
  updateWindowDims := [1]
  insertedWindowDims := [0]
  scatterDimsToOperandDims := [0]
  indexVectorDim := 1
  wf := scatter_S8192x65_S65536x1_S65536x65_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_1) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S256x64 : Shape := ⟨2, ![256, 64]⟩
abbrev S8192x64 : Shape := ⟨2, ![8192, 64]⟩
abbrev S_ : Shape := ⟨0, ![]⟩
abbrev S32x4096 : Shape := ⟨2, ![32, 4096]⟩
abbrev S65536x4096 : Shape := ⟨2, ![65536, 4096]⟩
abbrev S1x4096 : Shape := ⟨2, ![1, 4096]⟩
abbrev S65536x64x64 : Shape := ⟨3, ![65536, 64, 64]⟩
abbrev S65536x64 : Shape := ⟨2, ![65536, 64]⟩
abbrev S65536x1 : Shape := ⟨2, ![65536, 1]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S65536x32, .f32⟩
  | .hbm, ⟨3, _⟩ => ⟨S64x256, .f32⟩
  | .hbm, ⟨4, _⟩ => ⟨S64x64, .f32⟩
  | .hbm, ⟨5, _⟩ => ⟨S64x64, .f32⟩
  | .hbm, ⟨6, _⟩ => ⟨S4096x32, .f32⟩
  | .hbm, ⟨7, _⟩ => ⟨S4096, .f32⟩
  | .hbm, ⟨8, _⟩ => ⟨S65536, .i32⟩
  | .hbm, ⟨9, _⟩ => ⟨S65536, .i32⟩
  | .hbm, ⟨10, _⟩ => ⟨S256x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S256x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S32x4096, .f32⟩
  | .hbm, ⟨21, _⟩ => ⟨S65536x4096, .f32⟩
  | .hbm, ⟨22, _⟩ => ⟨S1x4096, .f32⟩
  | .hbm, ⟨23, _⟩ => ⟨S65536x4096, .f32⟩
  | .hbm, ⟨24, _⟩ => ⟨S65536x4096, .f32⟩
  | .hbm, ⟨25, _⟩ => ⟨S_, .f32⟩
  | .hbm, ⟨26, _⟩ => ⟨S65536x4096, .f32⟩
  | .hbm, ⟨27, _⟩ => ⟨S65536x4096, .f32⟩
  | .hbm, ⟨28, _⟩ => ⟨S65536x64x64, .f32⟩
  | .hbm, ⟨29, _⟩ => ⟨S_, .f32⟩
  | .hbm, ⟨30, _⟩ => ⟨S65536x64, .f32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S8192x64, .f32⟩
  | .hbm, ⟨43, _⟩ => ⟨S65536x1, .i32⟩
  | .hbm, ⟨44, _⟩ => ⟨S8192x64, .f32⟩
  | .hbm, ⟨45, _⟩ => ⟨S_, .f32⟩
  | .hbm, ⟨46, _⟩ => ⟨S65536, .f32⟩
  | .hbm, ⟨47, _⟩ => ⟨S_, .f32⟩
  | .hbm, ⟨48, _⟩ => ⟨S8192, .f32⟩
  | .hbm, ⟨49, _⟩ => ⟨S65536x1, .i32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1, .f32⟩
  | .hbm, ⟨55, _⟩ => ⟨S8192x64, .f32⟩
  | .hbm, ⟨56, _⟩ => ⟨S8192x64, .f32⟩
  | .hbm, ⟨57, _⟩ => ⟨S64x64, .f32⟩
  | .hbm, ⟨58, _⟩ => ⟨S8192x64, .f32⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S64x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S_, .f32⟩
  | .hbm, ⟨69, _⟩ => ⟨S8192x64, .f32⟩
  | .hbm, ⟨70, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call2_cst : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call4_cst : Ref sig .tc := ⟨.hbm, 64, rfl⟩
abbrev main_call4_v0 : Ref sig .tc := ⟨.hbm, 65, rfl⟩
abbrev main_v39 : Ref sig .tc := ⟨.hbm, 66, rfl⟩
abbrev main_v40 : Ref sig .tc := ⟨.hbm, 67, rfl⟩
abbrev main_call5_cst : Ref sig .tc := ⟨.hbm, 68, rfl⟩
abbrev main_call5_v0 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  transposes_S64x256_S256x64_1_0 : S64x256.Transposes [1, 0] S256x64
  bcast_S_S8192x64 : S_.BroadcastsInDim S8192x64 (![] : Fin 0 → Fin S8192x64.rank)
  transposes_S4096x32_S32x4096_1_0 : S4096x32.Transposes [1, 0] S32x4096
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  bcast_S_S65536x4096 : S_.BroadcastsInDim S65536x4096 (![] : Fin 0 → Fin S65536x4096.rank)
  shapeCasts_S65536x4096_S65536x64x64 : S65536x4096.ShapeCasts S65536x64x64
  reducesTo_S65536x64x64_S65536x64_d1 : S65536x64x64.ReducesTo [1] S65536x64
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S64x64_S64x64_1_0 : S64x64.Transposes [1, 0] S64x64
  dot_S8192x256_S256x64_S8192x64_1_0_0_1_n_n_wf : DotDims.WF S8192x256 S256x64 S8192x64 [1] [0] [0] [1] [] []
  dot_S65536x32_S32x4096_S65536x4096_1_0_0_1_n_n_wf : DotDims.WF S65536x32 S32x4096 S65536x4096 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  scatter_S8192_S65536x1_S65536_n_0_0_1_wf : ScatterDims.WF S8192 S65536x1 S65536 [] [0] [0] 1
  dot_S8192x64_S64x64_S8192x64_1_0_0_1_n_n_wf : DotDims.WF S8192x64 S64x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S65536x32_S32x4096_S65536x4096_1_0_0_1_n_n : DotDims S65536x32 S32x4096 S65536x4096 where
  lhsContracting := [1]
  rhsContracting := [0]
  lhsNonContracting := [0]
  rhsNonContracting := [1]
  lhsBatch := []
  rhsBatch := []
  wf := dot_S65536x32_S32x4096_S65536x4096_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.Forms.lean ====
/-
  The entries of the layer's arrays, as sums and maxima over the extended reals.

  Every dense stage of the layer is a rectified matrix product: entry (r, c) is the larger of Σ_k A(r, k) · B(k, c)
  and zero.  The edge transform has 4096 = 64 · 64 output columns; column 64 · i + j is output feature j of group i,
  and the quantity the layer uses is the transform summed over the 64 groups, feature by feature.
-/
import Idealize.ShloMosaic.PureOps.Ideal
import Idealize.ShloMosaic.Lib.ValueIdx

noncomputable section

open scoped BigOperators

namespace Cert.Forms

open Idealize.ShloMosaic Idealize.ShloMosaic.ValueIdx

/-- The float zero every rectifier compares against. -/
abbrev z0 : EReal := Ideal.ofBits .f32 0x00000000#32

/-- A matrix given by its entries. -/
def mat {M N : ℕ} (f : Fin M → Fin N → EReal) : (⟨2, ![M, N]⟩ : Shape).Idx → EReal :=
  fun i => f ⟨(i 0).val, (i 0).isLt⟩ ⟨(i 1).val, (i 1).isLt⟩

theorem mat_ix2 {M N : ℕ} (f : Fin M → Fin N → EReal) (r : Fin M) (c : Fin N) : mat f (ix2 r c) = f r c := rfl

/-- The transposed matrix: entry (k, c) is the matrix's entry (c, k). -/
def tr {N K : ℕ} (W : (⟨2, ![N, K]⟩ : Shape).Idx → EReal) : (⟨2, ![K, N]⟩ : Shape).Idx → EReal :=
  mat fun k c => W (ix2 c k)

theorem tr_ix2 {N K : ℕ} (W : (⟨2, ![N, K]⟩ : Shape).Idx → EReal) (k : Fin K) (c : Fin N) :
    tr W (ix2 k c) = W (ix2 c k) := rfl

/-- Entry (r, c) of a rectified matrix product: the larger of Σ_k A(r, k) · B(k, c) and zero. -/
def reluDot {M K N : ℕ} (A : (⟨2, ![M, K]⟩ : Shape).Idx → EReal) (B : (⟨2, ![K, N]⟩ : Shape).Idx → EReal)
    (r : Fin M) (c : Fin N) : EReal :=
  max (∑ k : Fin K, A (ix2 r k) * B (ix2 k c)) z0

/-- Column 64 · i + j of the edge transform's 4096 columns: output feature j of group i. -/
def col (i j : Fin 64) : Fin 4096 := ⟨i.val * 64 + j.val, by have := i.isLt; have := j.isLt; omega⟩

theorem col_val (i j : Fin 64) : (col i j).val = i.val * 64 + j.val := rfl

/-- The rectified edge transform of row e at column q: the larger of Σ_k X(e, k) · Wt(k, q) + b(q) and zero. -/
def edgeAct {E : ℕ} (X : (⟨2, ![E, 32]⟩ : Shape).Idx → EReal) (Wt : (⟨2, ![32, 4096]⟩ : Shape).Idx → EReal)
    (b : Fin 4096 → EReal) (e : Fin E) (q : Fin 4096) : EReal :=
  max (∑ k : Fin 32, X (ix2 e k) * Wt (ix2 k q) + b q) z0

/-- The edge transform summed over its 64 groups, at feature j: Σ_i edgeAct(e, 64 · i + j). -/
def edgeSum {E : ℕ} (X : (⟨2, ![E, 32]⟩ : Shape).Idx → EReal) (Wt : (⟨2, ![32, 4096]⟩ : Shape).Idx → EReal)
    (b : Fin 4096 → EReal) (e : Fin E) (j : Fin 64) : EReal :=
  ∑ i : Fin 64, edgeAct X Wt b e (col i j)

end Cert.Forms

end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.BodyDense.lean ====
/-
  What the first and the third kernel bodies leave in their output blocks, read at an entry.

  Each output block is written by one store that covers the whole block, and each input is read by one load of the
  whole block; so the block after the body is the stored value, a function of the input blocks.  The stored value
  is a chain of elementwise steps around matrix products into a zero accumulator: at an entry (p, o) a product is
  Σ_k lhs(p, k) · rhs(k, o), the comparison against the zero splat is a maximum with the float zero, a reshape to
  the same shape and a change of float format are the identity.
-/
import proofs.«143045_j65051574665680_2_alg».proof.Proof.Gen.KernelIdeal.Frame
import proofs.«143045_j65051574665680_2_alg».proof.Proof.Forms
import proofs.«143045_j65051574665680_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.BodyDense

open Idealize.ShloMosaic Idealize.ShloMosaic.ValueIdx Cert.KernelIdeal Cert.Forms

/-- The product of a 1024×256 block with a 256×64 block into the zero block, at entry (r, c): Σ_k lhs(r, k) · rhs(k, c).
    The left operand's row is the entry's row and the right operand's column is the entry's column, read off the
    literal dimension numbers. -/
theorem dotA_apply {φ₁ φ₂ : FTy} (lhs : FVec Ideal S1024x256 φ₁) (rhs : FVec Ideal S256x64 φ₂) (r : Fin 1024) (c : Fin 64) :
    matmul dot_S1024x256_S256x64_S1024x64_1_0_0_1_n_n none lhs rhs (constant S1024x64 .f32 0x00000000#32) (ix2 r c)
      = ∑ k : Fin 256, lhs (ix2 r k) * rhs (ix2 k c) := by
  refine (Ideal.matmul_constant_zero_apply dot_S1024x256_S256x64_S1024x64_1_0_0_1_n_n none lhs rhs (ix2 r c)).trans ?_
  refine LibMatmulNN.contr_sum dot_S1024x256_S256x64_S1024x64_1_0_0_1_n_n rfl rfl rfl rfl (fun j k => ?_) (fun j k => ?_) lhs rhs r c
  · unfold DotDims.lhsIdx
    rw [dif_neg (show ¬(0 : Fin S1024x256.rank) ∈ dot_S1024x256_S256x64_S1024x64_1_0_0_1_n_n.lhsBatch by decide),
      dif_pos (show (0 : Fin S1024x256.rank) ∈ dot_S1024x256_S256x64_S1024x64_1_0_0_1_n_n.lhsNonContracting by decide)]
    rfl
  · unfold DotDims.rhsIdx
    rw [dif_neg (show ¬(1 : Fin S256x64.rank) ∈ dot_S1024x256_S256x64_S1024x64_1_0_0_1_n_n.rhsBatch by decide),
      dif_pos (show (1 : Fin S256x64.rank) ∈ dot_S1024x256_S256x64_S1024x64_1_0_0_1_n_n.rhsNonContracting by decide)]
    rfl

/-- The product of a 1024×64 block with a 64×64 block into the zero block, at entry (r, c): Σ_k lhs(r, k) · rhs(k, c).
    The left operand's row is the entry's row and the right operand's column is the entry's column, read off the
    literal dimension numbers. -/
theorem dotB_apply {φ₁ φ₂ : FTy} (lhs : FVec Ideal S1024x64 φ₁) (rhs : FVec Ideal S64x64 φ₂) (r : Fin 1024) (c : Fin 64) :
    matmul dot_S1024x64_S64x64_S1024x64_1_0_0_1_n_n none lhs rhs (constant S1024x64 .f32 0x00000000#32) (ix2 r c)
      = ∑ k : Fin 64, lhs (ix2 r k) * rhs (ix2 k c) := by
  refine (Ideal.matmul_constant_zero_apply dot_S1024x64_S64x64_S1024x64_1_0_0_1_n_n none lhs rhs (ix2 r c)).trans ?_
  refine LibMatmulNN.contr_sum dot_S1024x64_S64x64_S1024x64_1_0_0_1_n_n rfl rfl rfl rfl (fun j k => ?_) (fun j k => ?_) lhs rhs r c
  · unfold DotDims.lhsIdx
    rw [dif_neg (show ¬(0 : Fin S1024x64.rank) ∈ dot_S1024x64_S64x64_S1024x64_1_0_0_1_n_n.lhsBatch by decide),
      dif_pos (show (0 : Fin S1024x64.rank) ∈ dot_S1024x64_S64x64_S1024x64_1_0_0_1_n_n.lhsNonContracting by decide)]
    rfl
  · unfold DotDims.rhsIdx
    rw [dif_neg (show ¬(1 : Fin S64x64.rank) ∈ dot_S1024x64_S64x64_S1024x64_1_0_0_1_n_n.rhsBatch by decide),
      dif_pos (show (1 : Fin S64x64.rank) ∈ dot_S1024x64_S64x64_S1024x64_1_0_0_1_n_n.rhsNonContracting by decide)]
    rfl

/-- The product of a 2048×64 block with a 64×64 block into the zero block, at entry (r, c): Σ_k lhs(r, k) · rhs(k, c).
    The left operand's row is the entry's row and the right operand's column is the entry's column, read off the
    literal dimension numbers. -/
theorem dotC_apply {φ₁ φ₂ : FTy} (lhs : FVec Ideal S2048x64 φ₁) (rhs : FVec Ideal S64x64 φ₂) (r : Fin 2048) (c : Fin 64) :
    matmul dot_S2048x64_S64x64_S2048x64_1_0_0_1_n_n none lhs rhs (constant S2048x64 .f32 0x00000000#32) (ix2 r c)
      = ∑ k : Fin 64, lhs (ix2 r k) * rhs (ix2 k c) := by
  refine (Ideal.matmul_constant_zero_apply dot_S2048x64_S64x64_S2048x64_1_0_0_1_n_n none lhs rhs (ix2 r c)).trans ?_
  refine LibMatmulNN.contr_sum dot_S2048x64_S64x64_S2048x64_1_0_0_1_n_n rfl rfl rfl rfl (fun j k => ?_) (fun j k => ?_) lhs rhs r c
  · unfold DotDims.lhsIdx
    rw [dif_neg (show ¬(0 : Fin S2048x64.rank) ∈ dot_S2048x64_S64x64_S2048x64_1_0_0_1_n_n.lhsBatch by decide),
      dif_pos (show (0 : Fin S2048x64.rank) ∈ dot_S2048x64_S64x64_S2048x64_1_0_0_1_n_n.lhsNonContracting by decide)]
    rfl
  · unfold DotDims.rhsIdx
    rw [dif_neg (show ¬(1 : Fin S64x64.rank) ∈ dot_S2048x64_S64x64_S2048x64_1_0_0_1_n_n.rhsBatch by decide),
      dif_pos (show (1 : Fin S64x64.rank) ∈ dot_S2048x64_S64x64_S2048x64_1_0_0_1_n_n.rhsNonContracting by decide)]
    rfl

/-- The first kernel's first output block: the rectified product of the first feature block with the weight block. -/
theorem out0_4_apply (x0 x1 : FVec Ideal S1024x256 .bf16) (x2 : FVec Ideal S256x64 .bf16) (x3 : FVec Ideal S64x64 .bf16) (p : Fin 1024) (o : Fin 64) :
    Gen.out0_4 (F := Ideal) x0 x1 x2 x3 (ix2 p o) = reluDot x0 x2 p o := by
  have hzA : (![0, 0] : Fin S1024x64.rank → Nat) = fun _ => 0 := funext fun a => by fin_cases a <;> rfl
  have hzB : (![0, 0] : Fin S256x64.rank → Nat) = fun _ => 0 := funext fun a => by fin_cases a <;> rfl
  have hzC : (![0, 0] : Fin S1024x256.rank → Nat) = fun _ => 0 := funext fun a => by fin_cases a <;> rfl
  unfold Gen.out0_4
  rw [View.canon_unit_zero hzA, View.ld_unit_zero hzB, View.ld_unit_zero hzC]
  unfold Gen.k0_pay2 Gen.k0_pay1
  simp only [shapeCast_self]
  rw [maximumf_apply, broadcast_apply, dotA_apply]
  rfl

/-- The first kernel's second output block: the rectified product of the second feature block with the weight block,
    multiplied by the second weight block and rectified again. -/
theorem out0_5_apply (x0 x1 : FVec Ideal S1024x256 .bf16) (x2 : FVec Ideal S256x64 .bf16) (x3 : FVec Ideal S64x64 .bf16) (p : Fin 1024) (o : Fin 64) :
    Gen.out0_5 (F := Ideal) x0 x1 x2 x3 (ix2 p o) = reluDot (mat (reluDot x1 x2)) x3 p o := by
  have hzA : (![0, 0] : Fin S1024x64.rank → Nat) = fun _ => 0 := funext fun a => by fin_cases a <;> rfl
  have hzB : (![0, 0] : Fin S256x64.rank → Nat) = fun _ => 0 := funext fun a => by fin_cases a <;> rfl
  have hzC : (![0, 0] : Fin S1024x256.rank → Nat) = fun _ => 0 := funext fun a => by fin_cases a <;> rfl
  have hzD : (![0, 0] : Fin S64x64.rank → Nat) = fun _ => 0 := funext fun a => by fin_cases a <;> rfl
  unfold Gen.out0_5
  rw [View.canon_unit_zero hzA, View.ld_unit_zero hzB, View.ld_unit_zero hzC, View.ld_unit_zero hzD]
  unfold Gen.k0_pay3 Gen.k0_pay1
  simp only [shapeCast_self]
  rw [maximumf_apply, broadcast_apply, dotB_apply]
  refine congrArg (fun t => max t _) (Finset.sum_congr rfl fun k _ => ?_)
  rw [mat_ix2, truncf_apply, maximumf_apply, broadcast_apply, dotA_apply]
  rfl

/-- The third kernel's output block: the first input block plus the rectified product of the second input block with
    the weight block, rectified. -/
theorem out2_3_apply (x0 : FVec Ideal S2048x64 .f32) (x1 : FVec Ideal S2048x64 .bf16) (x2 : FVec Ideal S64x64 .bf16) (p : Fin 2048) (o : Fin 64) :
    Gen.out2_3 (F := Ideal) x0 x1 x2 (ix2 p o) = max (x0 (ix2 p o) + reluDot x1 x2 p o) z0 := by
  have hzA : (![0, 0] : Fin S2048x64.rank → Nat) = fun _ => 0 := funext fun a => by fin_cases a <;> rfl
  have hzD : (![0, 0] : Fin S64x64.rank → Nat) = fun _ => 0 := funext fun a => by fin_cases a <;> rfl
  unfold Gen.out2_3
  rw [View.canon_unit_zero hzA, View.ld_unit_zero hzA, View.ld_unit_zero hzD, View.ld_unit_zero hzA]
  unfold Gen.k2_pay1
  simp only [shapeCast_self]
  rw [maximumf_apply, broadcast_apply, addf_apply, maximumf_apply, broadcast_apply, dotC_apply]
  rfl

end Cert.KernelIdeal.BodyDense

end
-- ==== Proof.Blocks0.lean ====
/-
  The first stage's two output arrays as whole-array functions of the arrays the stage finds.

  The stage walks eight grid points; point t stages rows 1024·t … 1024·t + 1023 of the two row operands and both
  weight matrices whole, and writes back rows 1024·t … of each output.  Entry (p, o) of a written block is the
  rectified product of row p of the staged operand with column o of the weights (the body, read at an entry), and row
  p of the staged block is row 1024·t + p of the array, so block t of each output is block t of one function of the
  whole arrays; the eight blocks tile the 8192 rows, row r lying in the block of point r / 1024.
-/
import proofs.«143045_j65051574665680_2_alg».proof.Proof.Gen.KernelIdeal.Frame
import proofs.«143045_j65051574665680_2_alg».proof.Proof.Forms
import proofs.«143045_j65051574665680_2_alg».proof.Proof.BodyDense
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen Cert.Forms
open Idealize.ShloMosaic.Pipeline (Dat Cfg Window)

variable (V : (c : Dev nD) → (b : Ref sig .tc) → Buf (Elt Ideal) ((c : Thread nD τ).loc b))

/-- The printed index maps over the eight grid points: row blocks move with the point, the weights stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 8 := Nat.lt_of_lt_of_eq t.isLt N_0

/-- Row p of the point's block of the first operand is row 1024·t + p of the array. -/
theorem read0_0 (c : Dev nD) (t : Fin cfg0.N) (p : Fin 1024) (k : Fin 256) (n : Fin 8192) (hn : n.val = t.val * 1024 + p.val) :
    iblk0 V c 0 t (ix2 p k) = V c main_v0 (ix2 n k) := by
  show V c main_v0 (((cfg0.win 0).blk t).view.emb (ix2 p k)) = V c main_v0 (ix2 n k)
  refine congrArg (V c main_v0) (funext fun a => Fin.ext ?_)
  obtain ⟨e0, e1, -⟩ := idx_facts t
  match a with
  | ⟨0, _⟩ => show win0_0.index t (0 : Fin 2) * 1024 + 1 * p.val = n.val; omega
  | ⟨1, _⟩ => show win0_0.index t (1 : Fin 2) * 256 + 1 * k.val = k.val; omega

/-- Row p of the point's block of the second operand is row 1024·t + p of the array. -/
theorem read0_1 (c : Dev nD) (t : Fin cfg0.N) (p : Fin 1024) (k : Fin 256) (n : Fin 8192) (hn : n.val = t.val * 1024 + p.val) :
    iblk0 V c 1 t (ix2 p k) = V c main_v1 (ix2 n k) := by
  show V c main_v1 (((cfg0.win 1).blk t).view.emb (ix2 p k)) = V c main_v1 (ix2 n k)
  refine congrArg (V c main_v1) (funext fun a => Fin.ext ?_)
  obtain ⟨-, -, e0, e1, -⟩ := idx_facts t
  match a with
  | ⟨0, _⟩ => show win0_1.index t (0 : Fin 2) * 1024 + 1 * p.val = n.val; omega
  | ⟨1, _⟩ => show win0_1.index t (1 : Fin 2) * 256 + 1 * k.val = k.val; omega

/-- The first weight matrix is staged whole at every point. -/
theorem read0_2 (c : Dev nD) (t : Fin cfg0.N) (k : Fin 256) (o : Fin 64) :
    iblk0 V c 2 t (ix2 k o) = V c main_v3 (ix2 k o) := by
  show V c main_v3 (((cfg0.win 2).blk t).view.emb (ix2 k o)) = V c main_v3 (ix2 k o)
  refine congrArg (V c main_v3) (funext fun a => Fin.ext ?_)
  obtain ⟨-, -, -, -, e0, e1, -⟩ := idx_facts t
  match a with
  | ⟨0, _⟩ => show win0_2.index t (0 : Fin 2) * 256 + 1 * k.val = k.val; omega
  | ⟨1, _⟩ => show win0_2.index t (1 : Fin 2) * 64 + 1 * o.val = o.val; omega

/-- The second weight matrix is staged whole at every point. -/
theorem read0_3 (c : Dev nD) (t : Fin cfg0.N) (h : Fin 64) (o : Fin 64) :
    iblk0 V c 3 t (ix2 h o) = V c main_v5 (ix2 h o) := by
  show V c main_v5 (((cfg0.win 3).blk t).view.emb (ix2 h o)) = V c main_v5 (ix2 h o)
  refine congrArg (V c main_v5) (funext fun a => Fin.ext ?_)
  obtain ⟨-, -, -, -, -, -, e0, e1, -⟩ := idx_facts t
  match a with
  | ⟨0, _⟩ => show win0_3.index t (0 : Fin 2) * 64 + 1 * h.val = h.val; omega
  | ⟨1, _⟩ => show win0_3.index t (1 : Fin 2) * 64 + 1 * o.val = o.val; omega

/-- The rectified product of the first operand with the first weights, as a whole array. -/
def G4 (c : Dev nD) : S8192x64.Idx → EReal := mat (reluDot (V c main_v0) (V c main_v3))

/-- The second operand's rectified product, multiplied by the second weights and rectified again, as a whole array. -/
def G5 (c : Dev nD) : S8192x64.Idx → EReal := mat (reluDot (mat (reluDot (V c main_v1) (V c main_v3))) (V c main_v5))

/-- What point t writes back through the first output window is block t of G4. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  funext y
  obtain ⟨p, o, rfl⟩ : ∃ (p : Fin 1024) (o : Fin 64), y = ix2 p o := ⟨y 0, y 1, eq_ix2 y⟩
  have ht := t_lt t
  obtain ⟨-, -, -, -, -, -, -, -, e0, e1, -⟩ := idx_facts t
  have hp := p.isLt
  let n : Fin 8192 := ⟨t.val * 1024 + p.val, by omega⟩
  have hemb : ((cfg0.win 4).blk t).view.emb (ix2 p o) = ix2 n o := funext fun a => Fin.ext (by
    match a with
    | ⟨0, _⟩ => show win0_4.index t (0 : Fin 2) * 1024 + 1 * p.val = t.val * 1024 + p.val; omega
    | ⟨1, _⟩ => show win0_4.index t (1 : Fin 2) * 64 + 1 * o.val = o.val; omega)
  show out0_4 (iblk0 V c 0 t) (iblk0 V c 1 t) (iblk0 V c 2 t) (iblk0 V c 3 t) (ix2 p o) = G4 V c (((cfg0.win 4).blk t).view.emb (ix2 p o))
  rw [hemb]
  refine (BodyDense.out0_4_apply (iblk0 V c 0 t) (iblk0 V c 1 t) (iblk0 V c 2 t) (iblk0 V c 3 t) p o).trans ?_
  show reluDot (iblk0 V c 0 t) (iblk0 V c 2 t) p o = reluDot (V c main_v0) (V c main_v3) n o
  unfold reluDot
  refine congrArg (max · z0) (Finset.sum_congr rfl fun k _ => ?_)
  rw [read0_0 V c t p k n rfl, read0_2 V c t k o]

/-- What point t writes back through the second output window is block t of G5. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  funext y
  obtain ⟨p, o, rfl⟩ : ∃ (p : Fin 1024) (o : Fin 64), y = ix2 p o := ⟨y 0, y 1, eq_ix2 y⟩
  have ht := t_lt t
  obtain ⟨-, -, -, -, -, -, -, -, -, -, e0, e1⟩ := idx_facts t
  have hp := p.isLt
  let n : Fin 8192 := ⟨t.val * 1024 + p.val, by omega⟩
  have hemb : ((cfg0.win 5).blk t).view.emb (ix2 p o) = ix2 n o := funext fun a => Fin.ext (by
    match a with
    | ⟨0, _⟩ => show win0_5.index t (0 : Fin 2) * 1024 + 1 * p.val = t.val * 1024 + p.val; omega
    | ⟨1, _⟩ => show win0_5.index t (1 : Fin 2) * 64 + 1 * o.val = o.val; omega)
  show out0_5 (iblk0 V c 0 t) (iblk0 V c 1 t) (iblk0 V c 2 t) (iblk0 V c 3 t) (ix2 p o) = G5 V c (((cfg0.win 5).blk t).view.emb (ix2 p o))
  rw [hemb]
  refine (BodyDense.out0_5_apply (iblk0 V c 0 t) (iblk0 V c 1 t) (iblk0 V c 2 t) (iblk0 V c 3 t) p o).trans ?_
  show reluDot (mat (reluDot (iblk0 V c 1 t) (iblk0 V c 2 t))) (iblk0 V c 3 t) p o
    = reluDot (mat (reluDot (V c main_v1) (V c main_v3))) (V c main_v5) n o
  have inner : ∀ h : Fin 64, reluDot (iblk0 V c 1 t) (iblk0 V c 2 t) p h = reluDot (V c main_v1) (V c main_v3) n h := fun h => by
    unfold reluDot
    refine congrArg (max · z0) (Finset.sum_congr rfl fun k _ => ?_)
    rw [read0_1 V c t p k n rfl, read0_2 V c t k h]
  show max (∑ h : Fin 64, mat (reluDot (iblk0 V c 1 t) (iblk0 V c 2 t)) (ix2 p h) * iblk0 V c 3 t (ix2 h o)) z0
    = max (∑ h : Fin 64, mat (reluDot (V c main_v1) (V c main_v3)) (ix2 n h) * V c main_v5 (ix2 h o)) z0
  refine congrArg (max · z0) (Finset.sum_congr rfl fun h _ => ?_)
  rw [mat_ix2, mat_ix2, inner h, read0_3 V c t h o]

/-- An index of an output array lies in point t's block iff each coordinate lies in the block's range. -/
theorem mem_blk4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v6_0).slice (win0_4.rect t)).set ↔ _
  rw [View.set_slice_whole, Rect.mem_set_unit]
  exact Iff.rfl

theorem mem_blk5 (t : Fin cfg0.N) (i : S8192x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v6_1).slice (win0_5.rect t)).set ↔ _
  rw [View.set_slice_whole, Rect.mem_set_unit]
  exact Iff.rfl

/-- Row r of the output lies in the block of point r / 1024. -/
theorem cover4 (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  let t : Fin cfg0.N := ⟨(i 0).val / 1024, Nat.lt_of_lt_of_eq (by omega) N_0.symm⟩
  have htv : t.val = (i 0).val / 1024 := rfl
  obtain ⟨-, -, -, -, -, -, -, -, e0, e1, -⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

theorem cover5 (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  let t : Fin cfg0.N := ⟨(i 0).val / 1024, Nat.lt_of_lt_of_eq (by omega) N_0.symm⟩
  have htv : t.val = (i 0).val / 1024 := rfl
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- After the first stage its first output array holds G4 of the arrays the stage found. -/
theorem arr0_4 (c : Dev nD) : (dat0 V c).arrAt 4 cfg0.N = G4 V c :=
  (dat0 V c).arrAt_eq_of_cover 4 (G4 V c) (fun t _ => flushed4_eq V c t) (fun i => cover4 i)

/-- After the first stage its second output array holds G5 of the arrays the stage found. -/
theorem arr0_5 (c : Dev nD) : (dat0 V c).arrAt 5 cfg0.N = G5 V c :=
  (dat0 V c).arrAt_eq_of_cover 5 (G5 V c) (fun t _ => flushed5_eq V c t) (fun i => cover5 i)

end Cert.KernelIdeal.Blocks0

end
-- ==== Proof.LibSlice2.lean ====
/-
  A rectangular cut of a matrix, read at an index: entry (a, b) of the cut that starts at row o₀ and column o₁ is
  entry (o₀ + a, o₁ + b) of the matrix.
-/
import Idealize.ShloMosaic.Lib.ValueIdx
import Idealize.ShloMosaic.Lib.Pipeline.Value

namespace LibSlice2

open Idealize.ShloMosaic Idealize.ShloMosaic.ValueIdx

variable {α : Type}

/-- A matrix cut from (o₀, o₁) reads, at (a, b), the matrix at (a', b') with a' = o₀ + a and b' = o₁ + b. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (a' : Fin n0) (b' : Fin n1) (ha : a'.val = o0 + a.val) (hb : b'.val = o1 + b.val) :
    extractStridedSlice ⟨2, ![m0, m1]⟩ ![o0, o1] X h (ix2 a b) = X (ix2 a' b') :=
  extractStridedSlice_apply _ _ _ _ _ (fun ax => by
    match ax with
    | ⟨0, _⟩ => exact ha
    | ⟨1, _⟩ => exact hb)

end LibSlice2
-- ==== Proof.LibTileSums.lean ====
/-
# Re-tiling of finite double sums in a commutative additive monoid

Two ways of adding up the same per-pixel quantity `g n p` over `n < 16` images and
`p < 65536` pixels give the same total, using only that addition is commutative and
associative (no cancellation, no distributivity):

* `sum_range_mul`      : a sum over `a < A`, `b < B` of `f (a * B + b)` is the sum of `f` over `range (A * B)`.
* `sum_div_mod`        : a sum over `τ < B * C` of `h (τ / C) (τ % C)` is the double sum of `h` over `range B`, `range C`.
* `sum_slabs_general`, `sum_slabs`   : the slab tiling `(s, l, τ) ↦ (8 s + τ / 4, (τ % 4) * 16384 + l)`.
* `sum_masked_general`, `sum_masked` : the masked tiling `(l, τ) ↦ τ * 27008 + l`, terms past the end replaced by `0`.
* `sum_slabs_fin`, `sum_masked_fin` : the same two statements with `Fin` index types.
* `running_sum`        : a sequence with `acc 0 = f 0`, `acc (k+1) = acc k + f (k+1)` is the partial sum of `f`.
* `running_sum_restart`: the same when the recursion restarts at every multiple of a period `P`.
-/
import Mathlib.Algebra.BigOperators.Fin
import Mathlib.Algebra.BigOperators.Intervals

namespace Cert.LibTileSums

open Finset

variable {M : Type*} [AddCommMonoid M]

/-- Row-major flattening: summing `f (a * B + b)` over `a < A`, `b < B` is summing `f` over `range (A * B)`. -/
theorem sum_range_mul (A B : ℕ) (f : ℕ → M) :
    ∑ a ∈ range A, ∑ b ∈ range B, f (a * B + b) = ∑ i ∈ range (A * B), f i := by
  induction A with
  | zero => simp
  | succ A ih =>
    rw [Finset.sum_range_succ, ih, Nat.succ_mul, Finset.sum_range_add]

/-- Splitting an index `τ < B * C` into quotient and remainder by `C`. -/
theorem sum_div_mod (B C : ℕ) (h : ℕ → ℕ → M) :
    ∑ τ ∈ range (B * C), h (τ / C) (τ % C) = ∑ j ∈ range B, ∑ q ∈ range C, h j q := by
  rw [← sum_range_mul B C (fun τ => h (τ / C) (τ % C))]
  refine Finset.sum_congr rfl fun j _ => Finset.sum_congr rfl fun q hq => ?_
  have hq' : q < C := Finset.mem_range.mp hq
  have hC : 0 < C := by omega
  have e1 : (j * C + q) / C = j := by
    rw [Nat.mul_comm j C, Nat.mul_add_div hC, Nat.div_eq_of_lt hq', Nat.add_zero]
  have e2 : (j * C + q) % C = q := by
    rw [Nat.mul_comm j C, Nat.mul_add_mod, Nat.mod_eq_of_lt hq']
  rw [e1, e2]

/-- Slab tiling, general sizes: `(s, l, τ) ↦ (s * B + τ / C, (τ % C) * D + l)` enumerates
`range (A * B) × range (C * D)` exactly once. -/
theorem sum_slabs_general (A B C D : ℕ) (g : ℕ → ℕ → M) :
    ∑ s ∈ range A, ∑ l ∈ range D, ∑ τ ∈ range (B * C), g (s * B + τ / C) (τ % C * D + l)
      = ∑ n ∈ range (A * B), ∑ p ∈ range (C * D), g n p := by
  rw [← sum_range_mul A B (fun n => ∑ p ∈ range (C * D), g n p)]
  refine Finset.sum_congr rfl fun s _ => ?_
  calc ∑ l ∈ range D, ∑ τ ∈ range (B * C), g (s * B + τ / C) (τ % C * D + l)
      = ∑ l ∈ range D, ∑ j ∈ range B, ∑ q ∈ range C, g (s * B + j) (q * D + l) :=
        Finset.sum_congr rfl fun l _ => sum_div_mod B C (fun j q => g (s * B + j) (q * D + l))
    _ = ∑ j ∈ range B, ∑ l ∈ range D, ∑ q ∈ range C, g (s * B + j) (q * D + l) := Finset.sum_comm
    _ = ∑ j ∈ range B, ∑ q ∈ range C, ∑ l ∈ range D, g (s * B + j) (q * D + l) :=
        Finset.sum_congr rfl fun j _ => Finset.sum_comm
    _ = ∑ j ∈ range B, ∑ p ∈ range (C * D), g (s * B + j) p :=
        Finset.sum_congr rfl fun j _ => sum_range_mul C D (fun p => g (s * B + j) p)

/-- (1) Slab tiling of 16 images of 65536 pixels: 2 slabs × 16384 lanes × 32 sublanes. -/
theorem sum_slabs (g : ℕ → ℕ → M) :
    ∑ s ∈ range 2, ∑ l ∈ range 16384, ∑ τ ∈ range 32, g (8 * s + τ / 4) ((τ % 4) * 16384 + l)
      = ∑ n ∈ range 16, ∑ p ∈ range 65536, g n p := by
  have h : ∑ s ∈ range 2, ∑ l ∈ range 16384, ∑ τ ∈ range 32, g (s * 8 + τ / 4) (τ % 4 * 16384 + l)
      = ∑ n ∈ range 16, ∑ p ∈ range 65536, g n p := sum_slabs_general 2 8 4 16384 g
  rw [← h]
  refine Finset.sum_congr rfl fun s _ => Finset.sum_congr rfl fun l _ =>
    Finset.sum_congr rfl fun τ _ => ?_
  rw [Nat.mul_comm 8 s]

/-- Masked tiling, general sizes: the offsets `τ * B + l` (`τ < A`, `l < B`) that are `< N` enumerate
`range N` exactly once when `N ≤ A * B`; the others contribute `0`. -/
theorem sum_masked_general (A B N : ℕ) (hN : N ≤ A * B) (f : ℕ → M) :
    ∑ l ∈ range B, ∑ τ ∈ range A, (if τ * B + l < N then f (τ * B + l) else 0)
      = ∑ p ∈ range N, f p := by
  calc ∑ l ∈ range B, ∑ τ ∈ range A, (if τ * B + l < N then f (τ * B + l) else 0)
      = ∑ τ ∈ range A, ∑ l ∈ range B, (if τ * B + l < N then f (τ * B + l) else 0) := Finset.sum_comm
    _ = ∑ i ∈ range (A * B), (if i < N then f i else 0) :=
        sum_range_mul A B (fun i => if i < N then f i else 0)
    _ = ∑ i ∈ (range (A * B)).filter (fun i => i < N), f i := (Finset.sum_filter _ _).symm
    _ = ∑ p ∈ range N, f p := by
        congr 1
        ext i
        simp only [Finset.mem_filter, Finset.mem_range]
        omega

/-- (2) Masked tiling of 16 images of 65536 pixels: 3 tiles of 27008 lanes, the last one cut at 65536. -/
theorem sum_masked (g : ℕ → ℕ → M) :
    ∑ n ∈ range 16, ∑ l ∈ range 27008, ∑ τ ∈ range 3,
        (if τ * 27008 + l < 65536 then g n (τ * 27008 + l) else 0)
      = ∑ n ∈ range 16, ∑ p ∈ range 65536, g n p :=
  Finset.sum_congr rfl fun n _ => sum_masked_general 3 27008 65536 (by omega) (g n)

/-- (3a) Slab tiling with `Fin` index types. -/
theorem sum_slabs_fin (g : ℕ → ℕ → M) :
    ∑ s : Fin 2, ∑ l : Fin 16384, ∑ τ : Fin 32, g (8 * s.val + τ.val / 4) ((τ.val % 4) * 16384 + l.val)
      = ∑ n : Fin 16, ∑ p : Fin 65536, g n.val p.val := by
  have h := sum_slabs g
  simp only [Finset.sum_range] at h
  exact h

/-- (3b) Masked tiling with `Fin` index types. -/
theorem sum_masked_fin (g : ℕ → ℕ → M) :
    ∑ n : Fin 16, ∑ l : Fin 27008, ∑ τ : Fin 3,
        (if τ.val * 27008 + l.val < 65536 then g n.val (τ.val * 27008 + l.val) else 0)
      = ∑ n : Fin 16, ∑ p : Fin 65536, g n.val p.val := by
  have h := sum_masked g
  simp only [Finset.sum_range] at h
  exact h

/-- (4a) A running sum: `acc 0 = f 0` and `acc (k + 1) = acc k + f (k + 1)` give the partial sums of `f`. -/
theorem running_sum (acc f : ℕ → M) (h0 : acc 0 = f 0) (hs : ∀ k, acc (k + 1) = acc k + f (k + 1)) (k : ℕ) :
    acc k = ∑ i ∈ range (k + 1), f i := by
  induction k with
  | zero => rw [h0, Finset.sum_range_one]
  | succ k ih => rw [hs, ih, Finset.sum_range_succ f (k + 1)]

/-- Running sum from a restart point `b` (a multiple of the period): for `r < P`,
`acc (b + r)` is the sum of `f (b + i)` over `i ≤ r`. -/
theorem running_sum_from (P : ℕ) (acc f : ℕ → M)
    (h0 : ∀ t, t % P = 0 → acc t = f t) (hs : ∀ t, t % P ≠ 0 → acc t = acc (t - 1) + f t)
    (b : ℕ) (hb : b % P = 0) (r : ℕ) (hr : r < P) :
    acc (b + r) = ∑ i ∈ range (r + 1), f (b + i) := by
  induction r with
  | zero => rw [Finset.sum_range_one, Nat.add_zero, h0 b hb]
  | succ r ih =>
    have hmod : (b + (r + 1)) % P = r + 1 := by
      rw [Nat.add_mod, hb, Nat.zero_add, Nat.mod_mod, Nat.mod_eq_of_lt hr]
    have hne : (b + (r + 1)) % P ≠ 0 := by rw [hmod]; exact Nat.succ_ne_zero r
    have hpred : b + (r + 1) - 1 = b + r := rfl
    rw [hs _ hne, hpred, ih (Nat.lt_of_succ_lt hr), Finset.sum_range_succ (fun i => f (b + i)) (r + 1)]

/-- (4b) A running sum that restarts at every multiple of the period `P`. -/
theorem running_sum_restart (P : ℕ) (hP : 0 < P) (acc f : ℕ → M)
    (h0 : ∀ t, t % P = 0 → acc t = f t) (hs : ∀ t, t % P ≠ 0 → acc t = acc (t - 1) + f t) (t : ℕ) :
    acc t = ∑ i ∈ range (t % P + 1), f (t - t % P + i) := by
  have hb : (t - t % P) % P = 0 := Nat.sub_mod_eq_zero_of_mod_eq (Nat.mod_mod t P).symm
  have h := running_sum_from P acc f h0 hs (t - t % P) hb (t % P) (Nat.mod_lt t hP)
  rwa [Nat.sub_add_cancel (Nat.mod_le t P)] at h

end Cert.LibTileSums
-- ==== Proof.BodyEdge.lean ====
/-
  The edge stage's output block, read at an entry.

  The block's 4096 transform columns are taken in eight chunks of 512.  Inside a chunk, column q carries output
  feature q mod 64, and three halvings (512 → 256 → 128 → 64 columns, each adding the upper half of the columns to
  the lower half) leave, at feature j, the sum of the chunk's eight columns 64 · r + j.  The eight chunk results are
  added one after another into a zero accumulator.  Since addition of extended reals is commutative and
  associative, the total at feature j is the sum of the rectified transform over all 64 columns 64 · i + j.
-/
import proofs.«143045_j65051574665680_2_alg».proof.Proof.Gen.KernelIdeal.Frame
import proofs.«143045_j65051574665680_2_alg».proof.Proof.Forms
import proofs.«143045_j65051574665680_2_alg».proof.Proof.LibMatmulNN
import proofs.«143045_j65051574665680_2_alg».proof.Proof.LibSlice2
import proofs.«143045_j65051574665680_2_alg».proof.Proof.LibTileSums

noncomputable section

open scoped BigOperators

namespace Cert.KernelIdeal.BodyEdge

open Idealize.ShloMosaic Idealize.ShloMosaic.ValueIdx Cert.KernelIdeal Cert.Forms

/-! ## One halving, and three of them -/

/-- Adding the upper half of a matrix's columns (from column m on) to its first m columns. -/
def halve {n0 n1 m : ℕ} (v : FVec Ideal ⟨2, ![n0, n1]⟩ .f32)
    (h0 : (⟨2, ![n0, n1]⟩ : Shape).Slices ![0, 0] ⟨2, ![n0, m]⟩)
    (h1 : (⟨2, ![n0, n1]⟩ : Shape).Slices ![0, m] ⟨2, ![n0, m]⟩) : FVec Ideal ⟨2, ![n0, m]⟩ .f32 :=
  addf (extractStridedSlice ⟨2, ![n0, m]⟩ ![0, 0] v h0) (extractStridedSlice ⟨2, ![n0, m]⟩ ![0, m] v h1)

/-- A halving read in row p: if the row's entries are V q, the halved row's are V q + V (m + q). -/
theorem halve_apply {n0 n1 m : ℕ} (v : FVec Ideal ⟨2, ![n0, n1]⟩ .f32)
    (h0 : (⟨2, ![n0, n1]⟩ : Shape).Slices ![0, 0] ⟨2, ![n0, m]⟩)
    (h1 : (⟨2, ![n0, n1]⟩ : Shape).Slices ![0, m] ⟨2, ![n0, m]⟩) (hm : m + m ≤ n1)
    (p : Fin n0) (V : ℕ → EReal) (hV : ∀ q : Fin n1, v (ix2 p q) = V q.val) (q : Fin m) :
    halve v h0 h1 (ix2 p q) = V q.val + V (m + q.val) := by
  have hq := q.isLt
  have e0 : extractStridedSlice ⟨2, ![n0, m]⟩ ![0, 0] v h0 (ix2 p q) = V q.val :=
    (LibSlice2.slice2_apply 0 0 v h0 p q p ⟨q.val, by omega⟩ (Nat.zero_add _).symm (Nat.zero_add _).symm).trans (hV _)
  have e1 : extractStridedSlice ⟨2, ![n0, m]⟩ ![0, m] v h1 (ix2 p q) = V (m + q.val) :=
    (LibSlice2.slice2_apply 0 m v h1 p q p ⟨m + q.val, by omega⟩ (Nat.zero_add _).symm rfl).trans (hV _)
  unfold halve
  rw [addf_apply, e0, e1]

/-- The three halvings 512 → 256 → 128 → 64 of a chunk. -/
def fold8 (v : FVec Ideal S2048x512 .f32) : FVec Ideal S2048x64 .f32 :=
  halve (halve (halve v Gen.slices_S2048x512_o0_0_S2048x256 Gen.slices_S2048x512_o0_256_S2048x256)
    Gen.slices_S2048x256_o0_0_S2048x128 Gen.slices_S2048x256_o0_128_S2048x128)
    Gen.slices_S2048x128_o0_0_S2048x64 Gen.slices_S2048x128_o0_64_S2048x64

/-- After the three halvings, feature j of row p holds the sum of the row's eight entries 64 · r + j. -/
theorem fold8_apply (v : FVec Ideal S2048x512 .f32) (p : Fin 2048) (V : ℕ → EReal)
    (hV : ∀ q : Fin 512, v (ix2 p q) = V q.val) (j : Fin 64) :
    fold8 v (ix2 p j) = ∑ r ∈ Finset.range 8, V (64 * r + j.val) := by
  have h1 := halve_apply v Gen.slices_S2048x512_o0_0_S2048x256 Gen.slices_S2048x512_o0_256_S2048x256
    (by norm_num) p V hV
  have h2 := halve_apply _ Gen.slices_S2048x256_o0_0_S2048x128 Gen.slices_S2048x256_o0_128_S2048x128
    (by norm_num) p (fun q => V q + V (256 + q)) h1
  have h3 := halve_apply _ Gen.slices_S2048x128_o0_0_S2048x64 Gen.slices_S2048x128_o0_64_S2048x64
    (by norm_num) p (fun q => (V q + V (256 + q)) + (V (128 + q) + V (256 + (128 + q)))) h2 j
  unfold fold8
  rw [h3]
  simp only [Finset.sum_range_succ, Finset.sum_range_zero, zero_add]
  rw [show 64 * 0 + j.val = j.val by omega, show 64 * 1 + j.val = 64 + j.val by omega,
    show 64 * 2 + j.val = 128 + j.val by omega, show 64 * 3 + j.val = 128 + (64 + j.val) by omega,
    show 64 * 4 + j.val = 256 + j.val by omega, show 64 * 5 + j.val = 256 + (64 + j.val) by omega,
    show 64 * 6 + j.val = 256 + (128 + j.val) by omega,
    show 64 * 7 + j.val = 256 + (128 + (64 + j.val)) by omega]
  ac_rfl

/-! ## One chunk of 512 columns -/

/-- The columns of a chunk before the rectifier: the row-by-column product of the block with the chunk's 32 × 512
    slice of the weights, plus the chunk's slice of the bias row broadcast down the rows. -/
def chunkPre (off : ℕ) (x0 : FVec Ideal S2048x32 .bf16) (x1 : FVec Ideal S32x4096 .bf16) (x2 : FVec Ideal S1x4096 .f32)
    (h1 : S32x4096.Slices ![0, off] S32x512) (h2 : S1x4096.Slices ![0, off] S1x512) : FVec Ideal S2048x512 .f32 :=
  addf (matmul dot_S2048x32_S32x512_S2048x512_1_0_0_1_n_n none x0 (extractStridedSlice S32x512 ![0, off] x1 h1)
      (constant S2048x512 .f32 0x00000000#32))
    (broadcastTo S2048x512 (extractStridedSlice S1x512 ![0, off] x2 h2) Gen.broadcasts_S1x512_S2048x512)

/-- The rectifier on a chunk's columns. -/
def rect (v : FVec Ideal S2048x512 .f32) : FVec Ideal S2048x512 .f32 :=
  maximumf v (broadcast S2048x512 (Scalar.ofBits .f32 0x00000000#32))

/-- A chunk's rectified column q is the rectified edge transform's column off + q. -/
theorem chunk_apply (off : ℕ) (x0 : FVec Ideal S2048x32 .bf16) (x1 : FVec Ideal S32x4096 .bf16)
    (x2 : FVec Ideal S1x4096 .f32) (h1 : S32x4096.Slices ![0, off] S32x512) (h2 : S1x4096.Slices ![0, off] S1x512)
    (p : Fin 2048) (q : Fin 512) (hq : off + q.val < 4096) :
    rect (chunkPre off x0 x1 x2 h1 h2) (ix2 p q)
      = edgeAct x0 x1 (fun c => x2 (ix2 (0 : Fin 1) c)) p ⟨off + q.val, hq⟩ := by
  have hm : matmul dot_S2048x32_S32x512_S2048x512_1_0_0_1_n_n none x0 (extractStridedSlice S32x512 ![0, off] x1 h1)
      (constant S2048x512 .f32 0x00000000#32) (ix2 p q) = ∑ k : Fin 32, x0 (ix2 p k) * x1 (ix2 k ⟨off + q.val, hq⟩) := by
    refine (Ideal.matmul_constant_zero_apply dot_S2048x32_S32x512_S2048x512_1_0_0_1_n_n none x0
      (extractStridedSlice S32x512 ![0, off] x1 h1) (ix2 p q)).trans ?_
    refine (LibMatmulNN.contr_sum dot_S2048x32_S32x512_S2048x512_1_0_0_1_n_n rfl rfl rfl rfl ?_ ?_ x0 _ p q).trans ?_
    · intro i k
      unfold DotDims.lhsIdx
      rw [dif_neg (show ¬(0 : Fin S2048x32.rank) ∈ dot_S2048x32_S32x512_S2048x512_1_0_0_1_n_n.lhsBatch by decide),
        dif_pos (show (0 : Fin S2048x32.rank) ∈ dot_S2048x32_S32x512_S2048x512_1_0_0_1_n_n.lhsNonContracting by decide)]
      rfl
    · intro i k
      unfold DotDims.rhsIdx
      rw [dif_neg (show ¬(1 : Fin S32x512.rank) ∈ dot_S2048x32_S32x512_S2048x512_1_0_0_1_n_n.rhsBatch by decide),
        dif_pos (show (1 : Fin S32x512.rank) ∈ dot_S2048x32_S32x512_S2048x512_1_0_0_1_n_n.rhsNonContracting by decide)]
      rfl
    · exact Finset.sum_congr rfl fun k _ => congrArg (x0 (ix2 p k) * ·)
        (LibSlice2.slice2_apply 0 off x1 h1 k q k ⟨off + q.val, hq⟩ (Nat.zero_add _).symm rfl)
  have hb : broadcastTo S2048x512 (extractStridedSlice S1x512 ![0, off] x2 h2) Gen.broadcasts_S1x512_S2048x512 (ix2 p q)
      = x2 (ix2 (0 : Fin 1) ⟨off + q.val, hq⟩) :=
    (broadcastTo_apply _ Gen.broadcasts_S1x512_S2048x512 (ix2 p q) (ix2 (0 : Fin 1) q) (fun a => by
      match a with
      | ⟨0, _⟩ => rfl
      | ⟨1, _⟩ => rfl)).trans
      (LibSlice2.slice2_apply 0 off x2 h2 (0 : Fin 1) q (0 : Fin 1) ⟨off + q.val, hq⟩ rfl rfl)
  unfold rect chunkPre edgeAct
  rw [maximumf_apply, addf_apply, broadcast_apply, hm, hb]
  rfl

/-! ## The payloads, in these words -/

/-- The float zero the accumulator starts from. -/
abbrev zacc : FVec Ideal S2048x64 .f32 := broadcast S2048x64 (Scalar.ofBits .f32 0x00000000#32)

/-- A chunk's contribution: its rectified columns, halved three times. -/
def chunkFold (off : ℕ) (x0 : FVec Ideal S2048x32 .bf16) (x1 : FVec Ideal S32x4096 .bf16) (x2 : FVec Ideal S1x4096 .f32)
    (h1 : S32x4096.Slices ![0, off] S32x512) (h2 : S1x4096.Slices ![0, off] S1x512) : FVec Ideal S2048x64 .f32 :=
  fold8 (rect (chunkPre off x0 x1 x2 h1 h2))

theorem pay2_eq (x0 : FVec Ideal S2048x32 .bf16) : Gen.k1_pay2 (F := Ideal) x0 = x0 := by
  unfold Gen.k1_pay2
  exact shapeCast_self _ _

theorem pay3_eq (x1 : FVec Ideal S32x4096 .bf16) : Gen.k1_pay3 (F := Ideal) x1 = x1 := by
  unfold Gen.k1_pay3
  exact shapeCast_self _ _

theorem pay4_eq (x2 : FVec Ideal S1x4096 .f32) : Gen.k1_pay4 (F := Ideal) x2 = x2 := by
  unfold Gen.k1_pay4
  exact shapeCast_self _ _

/-- Chunks 0 and 1 added into the zero accumulator. -/
theorem pay5_eq (x0 : FVec Ideal S2048x32 .bf16) (x1 : FVec Ideal S32x4096 .bf16) (x2 : FVec Ideal S1x4096 .f32) :
    Gen.k1_pay5 (F := Ideal) x0 x1 x2
      = addf (addf zacc (chunkFold 0 x0 x1 x2 Gen.slices_S32x4096_o0_0_S32x512 Gen.slices_S1x4096_o0_0_S1x512))
          (chunkFold 512 x0 x1 x2 Gen.slices_S32x4096_o0_512_S32x512 Gen.slices_S1x4096_o0_512_S1x512) := by
  unfold Gen.k1_pay5
  rw [pay2_eq, pay3_eq, pay4_eq]
  rfl

/-- Chunk 2 before its rectifier. -/
theorem pay6_eq (x0 : FVec Ideal S2048x32 .bf16) (x1 : FVec Ideal S32x4096 .bf16) (x2 : FVec Ideal S1x4096 .f32) :
    Gen.k1_pay6 (F := Ideal) x0 x1 x2
      = chunkPre 1024 x0 x1 x2 Gen.slices_S32x4096_o0_1024_S32x512 Gen.slices_S1x4096_o0_1024_S1x512 := by
  unfold Gen.k1_pay6
  rw [pay2_eq, pay3_eq, pay4_eq]
  rfl

/-- Chunk 2's rectifier and halvings, then chunks 3 and 4, added to what came before. -/
theorem pay7_eq (x0 : FVec Ideal S2048x32 .bf16) (x1 : FVec Ideal S32x4096 .bf16) (x2 : FVec Ideal S1x4096 .f32)
    (acc : FVec Ideal S2048x64 .f32) (pre : FVec Ideal S2048x512 .f32) :
    Gen.k1_pay7 (F := Ideal) x0 x1 x2 acc pre (Scalar.ofBits .f32 0x00000000#32)
      = addf (addf (addf acc (fold8 (rect pre)))
          (chunkFold 1536 x0 x1 x2 Gen.slices_S32x4096_o0_1536_S32x512 Gen.slices_S1x4096_o0_1536_S1x512))
          (chunkFold 2048 x0 x1 x2 Gen.slices_S32x4096_o0_2048_S32x512 Gen.slices_S1x4096_o0_2048_S1x512) := rfl

/-- Chunk 5, rectified. -/
theorem pay8_eq (x0 : FVec Ideal S2048x32 .bf16) (x1 : FVec Ideal S32x4096 .bf16) (x2 : FVec Ideal S1x4096 .f32) :
    Gen.k1_pay8 (F := Ideal) x0 x1 x2
      = rect (chunkPre 2560 x0 x1 x2 Gen.slices_S32x4096_o0_2560_S32x512 Gen.slices_S1x4096_o0_2560_S1x512) := rfl

/-- Chunk 5's halvings (the first of them begun one step earlier), then chunks 6 and 7, added to what came before. -/
theorem pay1_eq (x0 : FVec Ideal S2048x32 .bf16) (x1 : FVec Ideal S32x4096 .bf16) (x2 : FVec Ideal S1x4096 .f32)
    (acc : FVec Ideal S2048x64 .f32) (v : FVec Ideal S2048x512 .f32) :
    Gen.k1_pay1 (F := Ideal) x0 x1 x2 acc v
        (extractStridedSlice S2048x256 ![0, 0] v Gen.slices_S2048x512_o0_0_S2048x256)
      = addf (addf (addf acc (fold8 v))
          (chunkFold 3072 x0 x1 x2 Gen.slices_S32x4096_o0_3072_S32x512 Gen.slices_S1x4096_o0_3072_S1x512))
          (chunkFold 3584 x0 x1 x2 Gen.slices_S32x4096_o0_3584_S32x512 Gen.slices_S1x4096_o0_3584_S1x512) := rfl

theorem hz : (![0, 0] : Fin 2 → Nat) = fun _ => 0 := funext fun a => by fin_cases a <;> rfl

/-- The output block: the eight chunk contributions added, in order, into the zero accumulator. -/
theorem out1_3_eq (x0 : FVec Ideal S2048x32 .bf16) (x1 : FVec Ideal S32x4096 .bf16) (x2 : FVec Ideal S1x4096 .f32) :
    Gen.out1_3 (F := Ideal) x0 x1 x2
      = addf (addf (addf (addf (addf (addf (addf (addf zacc
          (chunkFold 0 x0 x1 x2 Gen.slices_S32x4096_o0_0_S32x512 Gen.slices_S1x4096_o0_0_S1x512))
          (chunkFold 512 x0 x1 x2 Gen.slices_S32x4096_o0_512_S32x512 Gen.slices_S1x4096_o0_512_S1x512))
          (chunkFold 1024 x0 x1 x2 Gen.slices_S32x4096_o0_1024_S32x512 Gen.slices_S1x4096_o0_1024_S1x512))
          (chunkFold 1536 x0 x1 x2 Gen.slices_S32x4096_o0_1536_S32x512 Gen.slices_S1x4096_o0_1536_S1x512))
          (chunkFold 2048 x0 x1 x2 Gen.slices_S32x4096_o0_2048_S32x512 Gen.slices_S1x4096_o0_2048_S1x512))
          (chunkFold 2560 x0 x1 x2 Gen.slices_S32x4096_o0_2560_S32x512 Gen.slices_S1x4096_o0_2560_S1x512))
          (chunkFold 3072 x0 x1 x2 Gen.slices_S32x4096_o0_3072_S32x512 Gen.slices_S1x4096_o0_3072_S1x512))
          (chunkFold 3584 x0 x1 x2 Gen.slices_S32x4096_o0_3584_S32x512 Gen.slices_S1x4096_o0_3584_S1x512) := by
  unfold Gen.out1_3
  rw [View.canon_unit_zero hz]
  simp only [View.ld_unit_zero (S := S2048x32) hz, View.ld_unit_zero (S := S32x4096) hz,
    View.ld_unit_zero (S := S1x4096) hz]
  rw [Gen.k1_pay9, pay2_eq, pay3_eq, pay4_eq, pay8_eq, pay1_eq, pay7_eq, pay6_eq, pay5_eq]
  rfl

/-! ## The sums -/

/-- The rectified edge transform of row p at column n, as a function of a plain number (zero past the last column). -/
def actN (x0 : FVec Ideal S2048x32 .bf16) (x1 : FVec Ideal S32x4096 .bf16) (x2 : FVec Ideal S1x4096 .f32)
    (p : Fin 2048) (n : ℕ) : EReal :=
  if h : n < 4096 then edgeAct x0 x1 (fun c => x2 (ix2 (0 : Fin 1) c)) p ⟨n, h⟩ else 0

theorem actN_of_lt (x0 : FVec Ideal S2048x32 .bf16) (x1 : FVec Ideal S32x4096 .bf16) (x2 : FVec Ideal S1x4096 .f32)
    (p : Fin 2048) (n : ℕ) (h : n < 4096) :
    actN x0 x1 x2 p n = edgeAct x0 x1 (fun c => x2 (ix2 (0 : Fin 1) c)) p ⟨n, h⟩ := by
  unfold actN
  exact dif_pos h

/-- Chunk c (columns 512 · c on) contributes, at feature j, the transform's columns 64 · (8 · c + r) + j, r < 8. -/
theorem chunkFold_apply (off c : ℕ) (hoff : off = 512 * c) (hc : c < 8) (x0 : FVec Ideal S2048x32 .bf16)
    (x1 : FVec Ideal S32x4096 .bf16) (x2 : FVec Ideal S1x4096 .f32) (h1 : S32x4096.Slices ![0, off] S32x512)
    (h2 : S1x4096.Slices ![0, off] S1x512) (p : Fin 2048) (j : Fin 64) :
    chunkFold off x0 x1 x2 h1 h2 (ix2 p j) = ∑ r ∈ Finset.range 8, actN x0 x1 x2 p ((c * 8 + r) * 64 + j.val) := by
  unfold chunkFold
  rw [fold8_apply _ p (fun n => actN x0 x1 x2 p (off + n)) (fun q => by
    have hq : off + q.val < 4096 := by have := q.isLt; omega
    exact (chunk_apply off x0 x1 x2 h1 h2 p q hq).trans (actN_of_lt x0 x1 x2 p _ hq).symm) j]
  refine Finset.sum_congr rfl fun r _ => congrArg (actN x0 x1 x2 p) ?_
  have := j.isLt
  omega

theorem out1_3_apply (x0 : FVec Ideal S2048x32 .bf16) (x1 : FVec Ideal S32x4096 .bf16) (x2 : FVec Ideal S1x4096 .f32) (p : Fin 2048) (j : Fin 64) :
    Gen.out1_3 (F := Ideal) x0 x1 x2 (ix2 p j) = edgeSum x0 x1 (fun q => x2 (ix2 (0 : Fin 1) q)) p j := by
  have hR : edgeSum x0 x1 (fun q => x2 (ix2 (0 : Fin 1) q)) p j
      = ∑ c ∈ Finset.range 8, ∑ r ∈ Finset.range 8, actN x0 x1 x2 p ((c * 8 + r) * 64 + j.val) := by
    rw [Cert.LibTileSums.sum_range_mul 8 8 (fun i => actN x0 x1 x2 p (i * 64 + j.val)), Finset.sum_range]
    unfold edgeSum
    refine Finset.sum_congr rfl fun i _ => ?_
    have hi : i.val * 64 + j.val < 4096 := by have := i.isLt; have := j.isLt; omega
    exact (actN_of_lt x0 x1 x2 p _ hi).symm
  rw [hR, out1_3_eq]
  simp only [addf_apply, broadcast_apply]
  rw [chunkFold_apply 0 0 rfl (by norm_num), chunkFold_apply 512 1 rfl (by norm_num),
    chunkFold_apply 1024 2 rfl (by norm_num), chunkFold_apply 1536 3 rfl (by norm_num),
    chunkFold_apply 2048 4 rfl (by norm_num), chunkFold_apply 2560 5 rfl (by norm_num),
    chunkFold_apply 3072 6 rfl (by norm_num), chunkFold_apply 3584 7 rfl (by norm_num)]
  rw [show (Scalar.ofBits .f32 0x00000000#32 : Ideal .f32) = 0 from Ideal.ofBits_zero_f32, zero_add]
  simp only [Finset.sum_range_succ (fun c => ∑ r ∈ Finset.range 8, actN x0 x1 x2 p ((c * 8 + r) * 64 + j.val)),
    Finset.sum_range_zero, zero_add]

end Cert.KernelIdeal.BodyEdge

end
-- ==== Proof.Blocks1.lean ====
/-
  The edge stage's output array as a whole-array function of the arrays the stage finds.

  The stage walks 32 grid points; point t stages rows 2048·t … 2048·t + 2047 of the edge features, the weights and
  the bias row whole, and writes back rows 2048·t … of the output.  Entry (p, j) of a written block is the edge
  transform of staged row p summed over its 64 groups at feature j (the body, read at an entry); the 32 blocks tile
  the 65536 rows, row r lying in the block of point r / 2048.
-/
import proofs.«143045_j65051574665680_2_alg».proof.Proof.Gen.KernelIdeal.Frame
import proofs.«143045_j65051574665680_2_alg».proof.Proof.Forms
import proofs.«143045_j65051574665680_2_alg».proof.Proof.BodyEdge
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.Forms
open Idealize.ShloMosaic.Pipeline (Dat Cfg Window)

variable (V : (c : Dev nD) → (b : Ref sig .tc) → Buf (Elt Ideal) ((c : Thread nD τ).loc b))

/-- The printed index maps over the 32 grid points: the edge rows move with the point, weights and bias stay put. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 32 := Nat.lt_of_lt_of_eq t.isLt N_1

/-- Row p of the point's block of edge features is row 2048·t + p of the array. -/
theorem read1_0 (c : Dev nD) (t : Fin cfg1.N) (p : Fin 2048) (k : Fin 32) (n : Fin 65536) (hn : n.val = t.val * 2048 + p.val) :
    iblk1 V c 0 t (ix2 p k) = V c main_v7 (ix2 n k) := by
  show V c main_v7 (((cfg1.win 0).blk t).view.emb (ix2 p k)) = V c main_v7 (ix2 n k)
  refine congrArg (V c main_v7) (funext fun a => Fin.ext ?_)
  obtain ⟨e0, e1, -⟩ := idx_facts t
  match a with
  | ⟨0, _⟩ => show win1_0.index t (0 : Fin 2) * 2048 + 1 * p.val = n.val; omega
  | ⟨1, _⟩ => show win1_0.index t (1 : Fin 2) * 32 + 1 * k.val = k.val; omega

/-- The edge weights are staged whole at every point. -/
theorem read1_1 (c : Dev nD) (t : Fin cfg1.N) (k : Fin 32) (q : Fin 4096) :
    iblk1 V c 1 t (ix2 k q) = V c main_v9 (ix2 k q) := by
  show V c main_v9 (((cfg1.win 1).blk t).view.emb (ix2 k q)) = V c main_v9 (ix2 k q)
  refine congrArg (V c main_v9) (funext fun a => Fin.ext ?_)
  obtain ⟨-, -, e0, e1, -⟩ := idx_facts t
  match a with
  | ⟨0, _⟩ => show win1_1.index t (0 : Fin 2) * 32 + 1 * k.val = k.val; omega
  | ⟨1, _⟩ => show win1_1.index t (1 : Fin 2) * 4096 + 1 * q.val = q.val; omega

/-- The bias row is staged whole at every point. -/
theorem read1_2 (c : Dev nD) (t : Fin cfg1.N) (q : Fin 4096) :
    iblk1 V c 2 t (ix2 (0 : Fin 1) q) = V c main_v10 (ix2 (0 : Fin 1) q) := by
  show V c main_v10 (((cfg1.win 2).blk t).view.emb (ix2 (0 : Fin 1) q)) = V c main_v10 (ix2 (0 : Fin 1) q)
  refine congrArg (V c main_v10) (funext fun a => Fin.ext ?_)
  obtain ⟨-, -, -, -, e0, e1, -⟩ := idx_facts t
  match a with
  | ⟨0, _⟩ => show win1_2.index t (0 : Fin 2) * 1 + 1 * 0 = 0; omega
  | ⟨1, _⟩ => show win1_2.index t (1 : Fin 2) * 4096 + 1 * q.val = q.val; omega

/-- The edge transform summed over its groups, as a whole array. -/
def G3 (c : Dev nD) : S65536x64.Idx → EReal :=
  mat (edgeSum (V c main_v7) (V c main_v9) (fun q => V c main_v10 (ix2 (0 : Fin 1) q)))

/-- What point t writes back is block t of G3. -/
theorem flushed3_eq (c : Dev nD) (t : Fin cfg1.N) :
    (dat1 V c).flushed 3 t = ((cfg1.win 3).blk t).view.read (Elt Ideal) (G3 V c) := by
  show (cfg1.win 3).cut (grid1.coords t) ((dat1 V c).after 3 t) = _
  rw [after1_3]
  funext y
  obtain ⟨p, j, rfl⟩ : ∃ (p : Fin 2048) (j : Fin 64), y = ix2 p j := ⟨y 0, y 1, eq_ix2 y⟩
  have ht := t_lt t
  obtain ⟨-, -, -, -, -, -, e0, e1⟩ := idx_facts t
  have hp := p.isLt
  let n : Fin 65536 := ⟨t.val * 2048 + p.val, by omega⟩
  have hemb : ((cfg1.win 3).blk t).view.emb (ix2 p j) = ix2 n j := funext fun a => Fin.ext (by
    match a with
    | ⟨0, _⟩ => show win1_3.index t (0 : Fin 2) * 2048 + 1 * p.val = t.val * 2048 + p.val; omega
    | ⟨1, _⟩ => show win1_3.index t (1 : Fin 2) * 64 + 1 * j.val = j.val; omega)
  show out1_3 (iblk1 V c 0 t) (iblk1 V c 1 t) (iblk1 V c 2 t) (ix2 p j) = G3 V c (((cfg1.win 3).blk t).view.emb (ix2 p j))
  rw [hemb]
  refine (BodyEdge.out1_3_apply (iblk1 V c 0 t) (iblk1 V c 1 t) (iblk1 V c 2 t) p j).trans ?_
  show edgeSum (iblk1 V c 0 t) (iblk1 V c 1 t) (fun q => iblk1 V c 2 t (ix2 (0 : Fin 1) q)) p j
    = edgeSum (V c main_v7) (V c main_v9) (fun q => V c main_v10 (ix2 (0 : Fin 1) q)) n j
  unfold edgeSum edgeAct
  refine Finset.sum_congr rfl fun i _ => congrArg (max · z0) ?_
  beta_reduce
  rw [read1_2 V c t (col i j)]
  refine congrArg (· + V c main_v10 (ix2 (0 : Fin 1) (col i j))) (Finset.sum_congr rfl fun k _ => ?_)
  rw [read1_0 V c t p k n rfl, read1_1 V c t k (col i j)]

theorem mem_blk3 (t : Fin cfg1.N) (i : S65536x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v11).slice (win1_3.rect t)).set ↔ _
  rw [View.set_slice_whole, Rect.mem_set_unit]
  exact Iff.rfl

/-- Row r of the output lies in the block of point r / 2048. -/
theorem cover3 (i : S65536x64.Idx) : ∃ t : Fin cfg1.N, (cfg1.win 3).flush t = true ∧ i ∈ ((cfg1.win 3).blk t).view.set := by
  have hi0 : (i 0).val < 65536 := (i 0).isLt
  have hi1 : (i 1).val < 64 := (i 1).isLt
  let t : Fin cfg1.N := ⟨(i 0).val / 2048, Nat.lt_of_lt_of_eq (by omega) N_1.symm⟩
  have htv : t.val = (i 0).val / 2048 := rfl
  obtain ⟨-, -, -, -, -, -, e0, e1⟩ := idx_facts t
  refine ⟨t, flush1_3 t, ?_⟩
  rw [mem_blk3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 64 ≤ (i 1).val ∧ (i 1).val < win1_3.index t (1 : Fin 2) * 64 + 64; omega

/-- After the edge stage its output array holds G3 of the arrays the stage found. -/
theorem arr1_3 (c : Dev nD) : (dat1 V c).arrAt 3 cfg1.N = G3 V c :=
  (dat1 V c).arrAt_eq_of_cover 3 (G3 V c) (fun t _ => flushed3_eq V c t) (fun i => cover3 i)

end Cert.KernelIdeal.Blocks1

end
-- ==== Proof.Blocks2.lean ====
/-
  The final stage's output array as a whole-array function of the arrays the stage finds.

  The stage walks four grid points; point t stages rows 2048·t … 2048·t + 2047 of the self term and of the neighbour
  means, the neighbour weights whole, and writes back rows 2048·t … of the output.  Entry (p, o) of a written block is
  the larger of zero and the self term plus the rectified product of the means' row p with column o of the weights
  (the body, read at an entry); the four blocks tile the 8192 rows, row r lying in the block of point r / 2048.
-/
import proofs.«143045_j65051574665680_2_alg».proof.Proof.Gen.KernelIdeal.Frame
import proofs.«143045_j65051574665680_2_alg».proof.Proof.Forms
import proofs.«143045_j65051574665680_2_alg».proof.Proof.BodyDense
import Idealize.ShloMosaic.Lib.Pipeline.Value
import Idealize.ShloMosaic.Lib.ValueIdx

set_option maxRecDepth 16384

noncomputable section

namespace Cert.KernelIdeal.Blocks2

open Idealize.ShloMosaic Idealize.ShloMosaic.TcCoe Idealize.ShloMosaic.ValueIdx Idealize.SL.Sem
open Cert.KernelIdeal Cert.KernelIdeal.Gen Cert.Forms
open Idealize.ShloMosaic.Pipeline (Dat Cfg Window)

variable (V : (c : Dev nD) → (b : Ref sig .tc) → Buf (Elt Ideal) ((c : Thread nD τ).loc b))

/-- The printed index maps over the four grid points: the two row operands move with the point, the weights stay put. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 4 := Nat.lt_of_lt_of_eq t.isLt N_2

/-- Row p of the point's block of the self term is row 2048·t + p of the array. -/
theorem read2_0 (c : Dev nD) (t : Fin cfg2.N) (p : Fin 2048) (o : Fin 64) (n : Fin 8192) (hn : n.val = t.val * 2048 + p.val) :
    iblk2 V c 0 t (ix2 p o) = V c main_v6_1 (ix2 n o) := by
  show V c main_v6_1 (((cfg2.win 0).blk t).view.emb (ix2 p o)) = V c main_v6_1 (ix2 n o)
  refine congrArg (V c main_v6_1) (funext fun a => Fin.ext ?_)
  obtain ⟨e0, e1, -⟩ := idx_facts t
  match a with
  | ⟨0, _⟩ => show win2_0.index t (0 : Fin 2) * 2048 + 1 * p.val = n.val; omega
  | ⟨1, _⟩ => show win2_0.index t (1 : Fin 2) * 64 + 1 * o.val = o.val; omega

/-- Row p of the point's block of the neighbour means is row 2048·t + p of the array. -/
theorem read2_1 (c : Dev nD) (t : Fin cfg2.N) (p : Fin 2048) (k : Fin 64) (n : Fin 8192) (hn : n.val = t.val * 2048 + p.val) :
    iblk2 V c 1 t (ix2 p k) = V c main_v31 (ix2 n k) := by
  show V c main_v31 (((cfg2.win 1).blk t).view.emb (ix2 p k)) = V c main_v31 (ix2 n k)
  refine congrArg (V c main_v31) (funext fun a => Fin.ext ?_)
  obtain ⟨-, -, e0, e1, -⟩ := idx_facts t
  match a with
  | ⟨0, _⟩ => show win2_1.index t (0 : Fin 2) * 2048 + 1 * p.val = n.val; omega
  | ⟨1, _⟩ => show win2_1.index t (1 : Fin 2) * 64 + 1 * k.val = k.val; omega

/-- The neighbour weights are staged whole at every point. -/
theorem read2_2 (c : Dev nD) (t : Fin cfg2.N) (k : Fin 64) (o : Fin 64) :
    iblk2 V c 2 t (ix2 k o) = V c main_v33 (ix2 k o) := by
  show V c main_v33 (((cfg2.win 2).blk t).view.emb (ix2 k o)) = V c main_v33 (ix2 k o)
  refine congrArg (V c main_v33) (funext fun a => Fin.ext ?_)
  obtain ⟨-, -, -, -, e0, e1, -⟩ := idx_facts t
  match a with
  | ⟨0, _⟩ => show win2_2.index t (0 : Fin 2) * 64 + 1 * k.val = k.val; omega
  | ⟨1, _⟩ => show win2_2.index t (1 : Fin 2) * 64 + 1 * o.val = o.val; omega

/-- A matrix of extended reals read at row r, column c. -/
def ent {M N : ℕ} (A : (⟨2, ![M, N]⟩ : Shape).Idx → EReal) (r : Fin M) (c : Fin N) : EReal := A (ix2 r c)

/-- The self term plus the rectified neighbour product, rectified, as a whole array. -/
def G3 (c : Dev nD) : S8192x64.Idx → EReal :=
  mat fun n o => max (ent (V c main_v6_1) n o + reluDot (V c main_v31) (V c main_v33) n o) z0

/-- What point t writes back is block t of G3. -/
theorem flushed3_eq (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3]
  funext y
  obtain ⟨p, o, rfl⟩ : ∃ (p : Fin 2048) (o : Fin 64), y = ix2 p o := ⟨y 0, y 1, eq_ix2 y⟩
  have ht := t_lt t
  obtain ⟨-, -, -, -, -, -, e0, e1⟩ := idx_facts t
  have hp := p.isLt
  let n : Fin 8192 := ⟨t.val * 2048 + p.val, by omega⟩
  have hemb : ((cfg2.win 3).blk t).view.emb (ix2 p o) = ix2 n o := funext fun a => Fin.ext (by
    match a with
    | ⟨0, _⟩ => show win2_3.index t (0 : Fin 2) * 2048 + 1 * p.val = t.val * 2048 + p.val; omega
    | ⟨1, _⟩ => show win2_3.index t (1 : Fin 2) * 64 + 1 * o.val = o.val; omega)
  show out2_3 (iblk2 V c 0 t) (iblk2 V c 1 t) (iblk2 V c 2 t) (ix2 p o) = G3 V c (((cfg2.win 3).blk t).view.emb (ix2 p o))
  rw [hemb]
  refine (BodyDense.out2_3_apply (iblk2 V c 0 t) (iblk2 V c 1 t) (iblk2 V c 2 t) p o).trans ?_
  show max (ent (iblk2 V c 0 t) p o + reluDot (iblk2 V c 1 t) (iblk2 V c 2 t) p o) z0
    = max (ent (V c main_v6_1) n o + reluDot (V c main_v31) (V c main_v33) n o) z0
  rw [show ent (iblk2 V c 0 t) p o = ent (V c main_v6_1) n o from read2_0 V c t p o n rfl]
  refine congrArg (fun x => max (ent (V c main_v6_1) n o + x) z0) ?_
  unfold reluDot
  refine congrArg (max · z0) (Finset.sum_congr rfl fun k _ => ?_)
  rw [read2_1 V c t p k n rfl, read2_2 V c t k o]

theorem mem_blk3 (t : Fin cfg2.N) (i : S8192x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v34).slice (win2_3.rect t)).set ↔ _
  rw [View.set_slice_whole, Rect.mem_set_unit]
  exact Iff.rfl

/-- Row r of the output lies in the block of point r / 2048. -/
theorem cover3 (i : S8192x64.Idx) : ∃ t : Fin cfg2.N, (cfg2.win 3).flush t = true ∧ i ∈ ((cfg2.win 3).blk t).view.set := by
  have hi0 : (i 0).val < 8192 := (i 0).isLt
  have hi1 : (i 1).val < 64 := (i 1).isLt
  let t : Fin cfg2.N := ⟨(i 0).val / 2048, Nat.lt_of_lt_of_eq (by omega) N_2.symm⟩
  have htv : t.val = (i 0).val / 2048 := rfl
  obtain ⟨-, -, -, -, -, -, e0, e1⟩ := idx_facts t
  refine ⟨t, flush2_3 t, ?_⟩
  rw [mem_blk3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 64 ≤ (i 1).val ∧ (i 1).val < win2_3.index t (1 : Fin 2) * 64 + 64; omega

/-- After the final stage its output array holds G3 of the arrays the stage found. -/
theorem arr2_3 (c : Dev nD) : (dat2 V c).arrAt 3 cfg2.N = G3 V c :=
  (dat2 V c).arrAt_eq_of_cover 3 (G3 V c) (fun t _ => flushed3_eq V c t) (fun i => cover3 i)

end Cert.KernelIdeal.Blocks2

end
-- ==== Proof.MidForms.lean ====
/-
  The scatter-mean between the edge stage and the final stage, in the two programs' spellings, as whole-array
  functions of the message array (one row of 64 features per edge) and the column of destination node numbers.

  One program appends a column of ones to the messages, accumulates the 65-column rows per destination node, cuts the
  accumulated table into its first 64 columns (the sums) and its last column (the in-degree), and divides the sums by
  the larger of the in-degree and one, spread across the 64 columns.  The other accumulates the 64-column rows and,
  separately, a vector of ones, and divides by the larger of that in-degree and one, spread to a column and then
  across the 64 columns.
-/
import proofs.«143045_j65051574665680_2_alg».proof.Proof.Gen.KernelIdeal
import proofs.«143045_j65051574665680_2_alg».proof.Proof.Gen.ReferenceIdeal
import Idealize.ShloMosaic.PureOps.Ideal

noncomputable section

namespace Cert.MidForms

open Idealize.ShloMosaic

/-- The messages with a column of ones appended, accumulated per destination node into a zero table of 65 columns. -/
def aggAug (msg : FVec Ideal Cert.KernelIdeal.S65536x64 .f32) (dcol : IVec Cert.KernelIdeal.S65536x1 32) :
    FVec Ideal Cert.KernelIdeal.S8192x65 .f32 :=
  Host.scatterAdd (F := Ideal) Cert.KernelIdeal.scatter_S8192x65_S65536x1_S65536x65_1_0_0_1
    (broadcastInDim Cert.KernelIdeal.S8192x65 ![] Cert.KernelIdeal.Facts₀.bcast_S_S8192x65
      (constant (F := Ideal) Cert.KernelIdeal.S_ .f32 0x00000000#32))
    dcol
    (concatenate Cert.KernelIdeal.S65536x65 1
      [⟨Cert.KernelIdeal.S65536x64, msg⟩,
       ⟨Cert.KernelIdeal.S65536x1, broadcastInDim Cert.KernelIdeal.S65536x1 ![] Cert.KernelIdeal.Facts₀.bcast_S_S65536x1
          (constant (F := Ideal) Cert.KernelIdeal.S_ .f32 0x3F800000#32)⟩]
      Cert.KernelIdeal.Facts₀.concatenates_S65536x64_S65536x1_S65536x65_d1)

/-- The per-node mean in the one-accumulation spelling: the first 64 accumulated columns over the larger of the 65th
    and one. -/
def kMid (msg : FVec Ideal Cert.KernelIdeal.S65536x64 .f32) (dcol : IVec Cert.KernelIdeal.S65536x1 32) :
    FVec Ideal Cert.KernelIdeal.S8192x64 .f32 :=
  Host.divf (F := Ideal)
    (extractStridedSlice Cert.KernelIdeal.S8192x64 ![0, 0] (aggAug msg dcol) Cert.KernelIdeal.Facts₀.slices_S8192x65_S8192x64_0_0)
    (broadcastInDim Cert.KernelIdeal.S8192x64 ![0, 1] Cert.KernelIdeal.Facts₀.bcast_S8192x1_S8192x64_0_1
      (maximumf
        (extractStridedSlice Cert.KernelIdeal.S8192x1 ![0, 64] (aggAug msg dcol) Cert.KernelIdeal.Facts₀.slices_S8192x65_S8192x1_0_64)
        (broadcastInDim Cert.KernelIdeal.S8192x1 ![] Cert.KernelIdeal.Facts₀.bcast_S_S8192x1
          (constant (F := Ideal) Cert.KernelIdeal.S_ .f32 0x3F800000#32))))

/-- The per-node mean in the two-accumulation spelling: the accumulated 64-column rows over the larger of the
    accumulated ones and one. -/
def rMid (msg : FVec Ideal Cert.ReferenceIdeal.S65536x64 .f32) (dcol : IVec Cert.ReferenceIdeal.S65536x1 32) :
    FVec Ideal Cert.ReferenceIdeal.S8192x64 .f32 :=
  Host.divf (F := Ideal)
    (Host.scatterAdd (F := Ideal) Cert.ReferenceIdeal.scatter_S8192x64_S65536x1_S65536x64_1_0_0_1
      (broadcastInDim Cert.ReferenceIdeal.S8192x64 ![] Cert.ReferenceIdeal.Facts₀.bcast_S_S8192x64
        (constant (F := Ideal) Cert.ReferenceIdeal.S_ .f32 0x00000000#32))
      dcol msg)
    (broadcastInDim Cert.ReferenceIdeal.S8192x64 ![0, 1] Cert.ReferenceIdeal.Facts₀.bcast_S8192x1_S8192x64_0_1
      (broadcastInDim Cert.ReferenceIdeal.S8192x1 ![0] Cert.ReferenceIdeal.Facts₀.bcast_S8192_S8192x1_0
        (maximumf
          (Host.scatterAdd (F := Ideal) Cert.ReferenceIdeal.scatter_S8192_S65536x1_S65536_n_0_0_1
            (broadcastInDim Cert.ReferenceIdeal.S8192 ![] Cert.ReferenceIdeal.Facts₀.bcast_S_S8192
              (constant (F := Ideal) Cert.ReferenceIdeal.S_ .f32 0x00000000#32))
            dcol
            (broadcastInDim Cert.ReferenceIdeal.S65536 ![] Cert.ReferenceIdeal.Facts₀.bcast_S_S65536
              (constant (F := Ideal) Cert.ReferenceIdeal.S_ .f32 0x3F800000#32)))
          (broadcastInDim Cert.ReferenceIdeal.S8192 ![] Cert.ReferenceIdeal.Facts₀.bcast_S_S8192
            (constant (F := Ideal) Cert.ReferenceIdeal.S_ .f32 0x3F800000#32)))))

end Cert.MidForms

end
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.LibConcatCols.lean ====
/-
  Two matrices with the same number of rows laid side by side, read at an index.

  The concatenation along the column axis of an a-by-b matrix and an a-by-c matrix reads, at row p and column k,
  the first matrix at (p, k) when k < b, and the second matrix at (p, k - b) otherwise.
-/
import Idealize.ShloMosaic.Lib.ValueIdx
import Idealize.ShloMosaic.Lib.Pipeline.Value

namespace LibConcatCols

open Idealize.ShloMosaic Idealize.ShloMosaic.ValueIdx

variable {α : Type}

/-- A column in the first piece's range reads the first piece. -/
theorem concat_cols_left {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin b)
    (hk : k'.val = k.val) :
    concatenate ⟨2, ![a, n]⟩ 1 [⟨⟨2, ![a, b]⟩, x₁⟩, ⟨⟨2, ![a, c]⟩, x₂⟩] h (ix2 p k) = x₁ (ix2 p k') :=
  concatenate_pair_apply_left 1 x₁ x₂ h (ix2 p k) rfl (ix2 p k') (fun d => by
    match d with
    | ⟨0, _⟩ => rfl
    | ⟨1, _⟩ => exact hk)

/-- A column past the first piece's range reads the second piece, the first piece's width less. -/
theorem concat_cols_right {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin c)
    (hk : k'.val + b = k.val) :
    concatenate ⟨2, ![a, n]⟩ 1 [⟨⟨2, ![a, b]⟩, x₁⟩, ⟨⟨2, ![a, c]⟩, x₂⟩] h (ix2 p k) = x₂ (ix2 p k') :=
  concatenate_pair_apply_right 1 x₁ x₂ h (ix2 p k) rfl rfl (ix2 p k') (fun d hd => by
    match d, hd with
    | ⟨0, _⟩, _ => rfl
    | ⟨1, _⟩, hd => exact absurd rfl hd) hk

end LibConcatCols
-- ==== Proof.HostMid.lean ====
/-
  The per-node mean of the messages, in the two programs' spellings, is the same quotient entry by entry.

  At node n and feature j both read: the sum of the messages (e, j) over the edges e whose destination number is n,
  added to the float zero, over the larger of the in-degree of n (the sum of a one per such edge, added to the float
  zero) and one.  The one-accumulation spelling finds the feature sums in columns 0..63 of its 65-column table and the
  in-degree in column 64, where the appended column of ones went; the two-accumulation spelling finds them in its
  64-column table and in its vector.  The two quotients are the same expression, term by term.
-/
import proofs.«143045_j65051574665680_2_alg».proof.Proof.MidForms
import proofs.«143045_j65051574665680_2_alg».proof.Proof.LibGatherScatter
import proofs.«143045_j65051574665680_2_alg».proof.Proof.LibConcatCols
import proofs.«143045_j65051574665680_2_alg».proof.Proof.LibSlice2

noncomputable section

open scoped BigOperators

namespace Cert.MidForms

open Idealize.ShloMosaic Idealize.ShloMosaic.ValueIdx

/-- The quotient of two arrays, read at an index, is the quotient of their entries. -/
theorem divf_at {s : Shape} {φ : FTy} (a b : FVec Ideal s φ) (i : s.Idx) :
    Host.divf (F := Ideal) a b i = Ideal.div (a i) (b i) := rfl

/-- A one-column array spread across n columns reads, at (r, t), its entry (r, 0). -/
theorem spreadCols_apply {α : Type} {m n : ℕ} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else _
    rw [if_pos rfl]

/-- A vector spread to a single column reads, at (r, c), its entry r. -/
theorem spreadToCol_apply {α : Type} {m : ℕ} (h : (⟨1, ![m]⟩ : Shape).BroadcastsInDim ⟨2, ![m, 1]⟩ ![0])
    (y : (⟨1, ![m]⟩ : Shape).Idx → α) (r : Fin m) (c : Fin 1) :
    broadcastInDim ⟨2, ![m, 1]⟩ ![0] h y (ix2 r c) = y (ix1 r) := by
  refine broadcastInDim_apply ![0] h y (ix2 r c) (ix1 r) ?_
  intro a
  match a with
  | ⟨0, _⟩ =>
    show r.val = if m = 1 then 0 else r.val
    split
    · have := r.isLt; omega
    · rfl

/-- The sum over the edges into node n of feature j of their messages, added to the float zero. -/
def featSum (msg : FVec Ideal Cert.KernelIdeal.S65536x64 .f32) (dcol : IVec Cert.KernelIdeal.S65536x1 32)
    (n : Fin 8192) (j : Fin 64) : EReal :=
  Ideal.ofBits .f32 0x00000000#32
    + ∑ e : Fin 65536, if (dcol (ix2 e (0 : Fin 1))).toInt = (n.val : ℤ) then msg (ix2 e j) else 0

/-- The in-degree of node n as a float: a one per edge into n, added to the float zero. -/
def degSum (dcol : IVec Cert.KernelIdeal.S65536x1 32) (n : Fin 8192) : EReal :=
  Ideal.ofBits .f32 0x00000000#32
    + ∑ e : Fin 65536, if (dcol (ix2 e (0 : Fin 1))).toInt = (n.val : ℤ) then Ideal.ofBits .f32 0x3F800000#32 else 0

/-- Columns 0..63 of the 65-column accumulated table hold the feature sums. -/
theorem aggAug_feat (msg : FVec Ideal Cert.KernelIdeal.S65536x64 .f32) (dcol : IVec Cert.KernelIdeal.S65536x1 32)
    (n : Fin 8192) (j : Fin 64) (j' : Fin 65) (hj : j.val = j'.val) :
    aggAug msg dcol (ix2 n j') = featSum msg dcol n j := by
  unfold aggAug featSum
  refine (LibGatherScatter.scatterAdd_rows_apply (N := 8192) (E := 65536) (W := 65)
    Cert.KernelIdeal.Facts₀.scatter_S8192x65_S65536x1_S65536x65_1_0_0_1_wf dcol _ _ n j').trans ?_
  refine congrArg₂ (· + ·) rfl (Finset.sum_congr rfl fun e _ => ?_)
  rw [LibConcatCols.concat_cols_left _ _ _ e j' j hj]

/-- Column 64 of the 65-column accumulated table holds the in-degree. -/
theorem aggAug_deg (msg : FVec Ideal Cert.KernelIdeal.S65536x64 .f32) (dcol : IVec Cert.KernelIdeal.S65536x1 32)
    (n : Fin 8192) :
    aggAug msg dcol (ix2 n (64 : Fin 65)) = degSum dcol n := by
  unfold aggAug degSum
  refine (LibGatherScatter.scatterAdd_rows_apply (N := 8192) (E := 65536) (W := 65)
    Cert.KernelIdeal.Facts₀.scatter_S8192x65_S65536x1_S65536x65_1_0_0_1_wf dcol _ _ n (64 : Fin 65)).trans ?_
  refine congrArg₂ (· + ·) rfl (Finset.sum_congr rfl fun e _ => ?_)
  rw [LibConcatCols.concat_cols_right _ _ _ e (64 : Fin 65) (0 : Fin 1) rfl]
  rfl

/-- The one-accumulation mean at (n, j): the feature sum over the larger of the in-degree and one. -/
theorem kMid_apply (msg : FVec Ideal Cert.KernelIdeal.S65536x64 .f32) (dcol : IVec Cert.KernelIdeal.S65536x1 32)
    (n : Fin 8192) (j : Fin 64) :
    kMid msg dcol (ix2 n j)
      = Ideal.div (featSum msg dcol n j) (max (degSum dcol n) (Ideal.ofBits .f32 0x3F800000#32)) := by
  unfold kMid
  refine (divf_at _ _ _).trans ?_
  refine congrArg₂ Ideal.div ?_ ?_
  · -- the cut of columns 0..63, read at (n, j), is the table at (n, j)
    refine (LibSlice2.slice2_apply 0 0 (aggAug msg dcol) _ n j n ⟨j.val, by have := j.isLt; omega⟩
      (by simp) (by simp)).trans ?_
    exact aggAug_feat msg dcol n j _ rfl
  · -- the one-column array spread across the columns reads its row n
    refine (spreadCols_apply Cert.KernelIdeal.Facts₀.bcast_S8192x1_S8192x64_0_1 _ n j).trans ?_
    refine (maximumf_apply _ _ _).trans ?_
    refine congrArg₂ max ?_ rfl
    -- the cut of column 64, read at (n, 0), is the table at (n, 64)
    refine (LibSlice2.slice2_apply 0 64 (aggAug msg dcol) _ n (0 : Fin 1) n (64 : Fin 65)
      (by simp) rfl).trans ?_
    exact aggAug_deg msg dcol n

/-- The two-accumulation mean at (n, j): the same quotient. -/
theorem rMid_apply (msg : FVec Ideal Cert.ReferenceIdeal.S65536x64 .f32) (dcol : IVec Cert.ReferenceIdeal.S65536x1 32)
    (n : Fin 8192) (j : Fin 64) :
    rMid msg dcol (ix2 n j)
      = Ideal.div (featSum msg dcol n j) (max (degSum dcol n) (Ideal.ofBits .f32 0x3F800000#32)) := by
  unfold rMid
  refine (divf_at _ _ _).trans ?_
  refine congrArg₂ Ideal.div ?_ ?_
  · exact LibGatherScatter.scatterAdd_rows_apply (N := 8192) (E := 65536) (W := 64)
      Cert.ReferenceIdeal.Facts₀.scatter_S8192x64_S65536x1_S65536x64_1_0_0_1_wf dcol _ msg n j
  · -- spread across the columns, then spread to a column: the vector's entry n
    refine (spreadCols_apply Cert.ReferenceIdeal.Facts₀.bcast_S8192x1_S8192x64_0_1 _ n j).trans ?_
    refine (spreadToCol_apply Cert.ReferenceIdeal.Facts₀.bcast_S8192_S8192x1_0 _ n (0 : Fin 1)).trans ?_
    refine (maximumf_apply _ _ _).trans ?_
    refine congrArg₂ max ?_ rfl
    exact LibGatherScatter.scatterAdd_vec_apply (N := 8192) (E := 65536)
      Cert.ReferenceIdeal.Facts₀.scatter_S8192_S65536x1_S65536_n_0_0_1_wf dcol _ _ n

/-- The two spellings of the per-node mean agree at every node and feature. -/
theorem mid_eq (msg : FVec Ideal Cert.KernelIdeal.S65536x64 .f32) (dcol : IVec Cert.KernelIdeal.S65536x1 32) (n : Fin 8192) (j : Fin 64) :
    kMid msg dcol (ix2 n j) = rMid msg dcol (ix2 n j) :=
  (kMid_apply msg dcol n j).trans (rMid_apply msg dcol n j).symm

end Cert.MidForms

end
-- ==== Proof.RefMid.lean ====
/-
  The reference program's stage for the per-node mean, one operation at a time, is the two-accumulation spelling of
  the mean applied to its message stage and to its column of destination numbers: the accumulated 64-column rows over
  the larger of the accumulated ones and one.  The two terms are the same once the stages between the messages and the
  quotient are written out; the message stage itself is left as it is.
-/
import proofs.«143045_j65051574665680_2_alg».proof.Proof.MidForms
import proofs.«143045_j65051574665680_2_alg».proof.Proof.Gen.ReferenceIdeal.Read

noncomputable section

namespace Cert.MidForms

open Idealize.ShloMosaic Cert.ReferenceIdeal Cert.ReferenceIdeal.Read

/-- The reference's quotient stage is the two-accumulation mean of its message stage at its destination column. -/
theorem ref_mid (x0 : FVec Ideal S8192x256 .f32) (x2 : FVec Ideal S65536x32 .f32) (x3 : FVec Ideal S64x256 .f32) (x6 : FVec Ideal S4096x32 .f32) (x7 : FVec Ideal S4096 .f32) (x8 x9 : IVec S65536 32) :
    val_main_v33 (F := Ideal) x0 x2 x3 x6 x7 x8 x9 = rMid (val_main_v21 (F := Ideal) x0 x2 x3 x6 x7 x8) (val_main_v23 (F := Ideal) x9) := by
  unfold val_main_v33 val_main_v24 val_main_v32 val_main_v31 val_main_v30 val_main_v28 val_main_v29 val_main_v27
    val_main_v26 val_main_v25 val_main_v22 val_main_v23 val_main_cst_1 val_main_cst_2 val_main_cst_3 val_main_cst_4 rMid
  rfl

end Cert.MidForms

end
-- ==== Proof.HostStretches.lean ====
/-
  The three stretches of host operations between the stages, read over any contents of the buffers they start from.

  The first stretch changes the float format of the two feature arrays (nothing, on the extended reals) and transposes
  the two weight matrices; the second does the same for the edge features and the edge weights and lays the bias out
  as a one-row matrix; the third computes the per-node mean of the gathered messages — which, when it finds the
  reference's pre-aggregation and summed edge transform in its inputs, is the reference's mean, the one-accumulation
  and two-accumulation spellings agreeing entry by entry — and transposes the neighbour weights.  No stretch writes an
  argument array or an earlier stage's output that a later stage reads.
-/
import proofs.«143045_j65051574665680_2_alg».proof.Proof.Gen.KernelIdeal.Frame
import proofs.«143045_j65051574665680_2_alg».proof.Proof.Gen.ReferenceIdeal.Read
import proofs.«143045_j65051574665680_2_alg».proof.Proof.Forms
import proofs.«143045_j65051574665680_2_alg».proof.Proof.MidForms
import proofs.«143045_j65051574665680_2_alg».proof.Proof.Blocks2
import proofs.«143045_j65051574665680_2_alg».proof.Proof.HostMid
import proofs.«143045_j65051574665680_2_alg».proof.Proof.RefMid
import Idealize.ShloMosaic.Lib.StableHlo.Run
import Idealize.ShloMosaic.Lib.Pipeline.Value
import Idealize.ShloMosaic.Lib.ValueIdx

set_option maxRecDepth 16384

noncomputable section

namespace Cert.KernelIdeal.HostStretches

open Idealize.ShloMosaic Idealize.ShloMosaic.TcCoe Idealize.ShloMosaic.ValueIdx Idealize.SL.Sem Idealize.ShloMosaic.StableHlo
open Cert.KernelIdeal Cert.KernelIdeal.Gen Cert.Forms Cert.MidForms
open Cert.KernelIdeal.Blocks2 (ent)

/-! ## The host stretches, read over any contents -/

section Stretches

variable (W : Valuation τ sig (Elt Ideal))

/-- The first stretch only changes the float format of the two feature arrays. -/
theorem s0_v0 (n : Fin 8192) (k : Fin 256) :
    ent (StableHlo.after (hostOps0 (F := Ideal)) W (Proc.devRef .tc main_v0)) n k = ent (W (Proc.devRef .tc main_arg0)) n k := by
  after_results; rfl

theorem s0_v1 (n : Fin 8192) (k : Fin 256) :
    ent (StableHlo.after (hostOps0 (F := Ideal)) W (Proc.devRef .tc main_v1)) n k = ent (W (Proc.devRef .tc main_arg1)) n k := by
  after_results; rfl

/-- … and transposes the two weight matrices. -/
theorem s0_v3 (k : Fin 256) (o : Fin 64) :
    ent (StableHlo.after (hostOps0 (F := Ideal)) W (Proc.devRef .tc main_v3)) k o = ent (W (Proc.devRef .tc main_arg3)) o k := by
  after_results
  exact transpose_apply [1, 0] _ _ (ix2 k o) (ix2 o k) (fun b => match b with | ⟨0, _⟩ => rfl | ⟨1, _⟩ => rfl)

theorem s0_v5 (h : Fin 64) (o : Fin 64) :
    ent (StableHlo.after (hostOps0 (F := Ideal)) W (Proc.devRef .tc main_v5)) h o = ent (W (Proc.devRef .tc main_arg4)) o h := by
  after_results
  exact transpose_apply [1, 0] _ _ (ix2 h o) (ix2 o h) (fun b => match b with | ⟨0, _⟩ => rfl | ⟨1, _⟩ => rfl)

/-- The second stretch changes the edge features' format, transposes the edge weights, and lays the bias out as a row. -/
theorem s1_v7 (e : Fin 65536) (k : Fin 32) :
    ent (StableHlo.after (hostOps1 (F := Ideal)) W (Proc.devRef .tc main_v7)) e k = ent (W (Proc.devRef .tc main_arg2)) e k := by
  after_results; rfl

theorem s1_v9 (k : Fin 32) (q : Fin 4096) :
    ent (StableHlo.after (hostOps1 (F := Ideal)) W (Proc.devRef .tc main_v9)) k q = ent (W (Proc.devRef .tc main_arg6)) q k := by
  after_results
  exact transpose_apply [1, 0] _ _ (ix2 k q) (ix2 q k) (fun b => match b with | ⟨0, _⟩ => rfl | ⟨1, _⟩ => rfl)

theorem s1_v10 (q : Fin 4096) :
    ent (StableHlo.after (hostOps1 (F := Ideal)) W (Proc.devRef .tc main_v10)) (0 : Fin 1) q
      = (W (Proc.devRef .tc main_arg7) : S4096.Idx → EReal) (ix1 q) := by
  after_results
  exact (shapeCast_addUnit_apply ![4096] _ _ (ix2 (0 : Fin 1) q)).trans
    (congrArg _ (funext fun a => by match a with | ⟨0, _⟩ => rfl))

/-- Neither of the first stage's outputs is touched by the second or third stretch. -/
theorem s1_keep_v6_0 : StableHlo.after (hostOps1 (F := Ideal)) W (Proc.devRef .tc main_v6_0) = W (Proc.devRef .tc main_v6_0) := by
  after_results

theorem s1_keep_v6_1 : StableHlo.after (hostOps1 (F := Ideal)) W (Proc.devRef .tc main_v6_1) = W (Proc.devRef .tc main_v6_1) := by
  after_results

theorem s2_keep_v6_1 : StableHlo.after (hostOps2 (F := Ideal)) W (Proc.devRef .tc main_v6_1) = W (Proc.devRef .tc main_v6_1) := by
  after_results

/-- The third stretch transposes the neighbour weights. -/
theorem s2_v33 (k : Fin 64) (o : Fin 64) :
    ent (StableHlo.after (hostOps2 (F := Ideal)) W (Proc.devRef .tc main_v33)) k o = ent (W (Proc.devRef .tc main_arg5)) o k := by
  after_results
  exact transpose_apply [1, 0] _ _ (ix2 k o) (ix2 o k) (fun b => match b with | ⟨0, _⟩ => rfl | ⟨1, _⟩ => rfl)

end Stretches

/-! ## The scatter-mean stretch against the reference's stage -/

section Neigh

variable (W : Valuation τ sig (Elt Ideal))
variable (x0 : FVec Ideal S8192x256 .f32) (x2 : FVec Ideal S65536x32 .f32) (x3 : FVec Ideal S64x256 .f32)
  (x6 : FVec Ideal S4096x32 .f32) (x7 : FVec Ideal S4096 .f32) (x8 x9 : IVec S65536 32)

set_option maxHeartbeats 1000000 in
/-- If the stretch finds the rectified pre-aggregation and the summed edge transform in its two input arrays, it
    leaves the per-node mean of their gathered product: the one-accumulation spelling and the two-accumulation
    spelling agree entry by entry. -/
theorem s2_neigh
    (h0 : (W (Proc.devRef .tc main_v6_0) : S8192x64.Idx → EReal) = Cert.ReferenceIdeal.Read.val_main_v2 (F := Ideal) x0 x3)
    (h1 : (W (Proc.devRef .tc main_v11) : S65536x64.Idx → EReal) = Cert.ReferenceIdeal.Read.val_main_v13 (F := Ideal) x2 x6 x7)
    (h8 : (W (Proc.devRef .tc main_arg8) : S65536.Idx → BitVec 32) = x8)
    (h9 : (W (Proc.devRef .tc main_arg9) : S65536.Idx → BitVec 32) = x9) :
    (StableHlo.after (hostOps2 (F := Ideal)) W (Proc.devRef .tc main_v31) : S8192x64.Idx → EReal)
      = Cert.ReferenceIdeal.Read.val_main_v33 (F := Ideal) x0 x2 x3 x6 x7 x8 x9 := by
  after_results
  rw [h0, h1, h8, h9, ref_mid]
  funext i
  obtain ⟨n, j, rfl⟩ : ∃ (n : Fin 8192) (j : Fin 64), i = ix2 n j := ⟨i 0, i 1, eq_ix2 i⟩
  exact mid_eq (Cert.ReferenceIdeal.Read.val_main_v21 (F := Ideal) x0 x2 x3 x6 x7 x8) (Cert.ReferenceIdeal.Read.val_main_v23 (F := Ideal) x9) n j

end Neigh

/-! ## The arguments, untouched by the host stretches -/

section Keep

variable (W : Valuation τ sig (Elt Ideal))

theorem k0_arg2 : StableHlo.after (hostOps0 (F := Ideal)) W (Proc.devRef .tc main_arg2) = W (Proc.devRef .tc main_arg2) := by after_results
theorem k0_arg5 : StableHlo.after (hostOps0 (F := Ideal)) W (Proc.devRef .tc main_arg5) = W (Proc.devRef .tc main_arg5) := by after_results
theorem k0_arg6 : StableHlo.after (hostOps0 (F := Ideal)) W (Proc.devRef .tc main_arg6) = W (Proc.devRef .tc main_arg6) := by after_results
theorem k0_arg7 : StableHlo.after (hostOps0 (F := Ideal)) W (Proc.devRef .tc main_arg7) = W (Proc.devRef .tc main_arg7) := by after_results
theorem k0_arg8 : StableHlo.after (hostOps0 (F := Ideal)) W (Proc.devRef .tc main_arg8) = W (Proc.devRef .tc main_arg8) := by after_results
theorem k0_arg9 : StableHlo.after (hostOps0 (F := Ideal)) W (Proc.devRef .tc main_arg9) = W (Proc.devRef .tc main_arg9) := by after_results
theorem k1_arg5 : StableHlo.after (hostOps1 (F := Ideal)) W (Proc.devRef .tc main_arg5) = W (Proc.devRef .tc main_arg5) := by after_results
theorem k1_arg8 : StableHlo.after (hostOps1 (F := Ideal)) W (Proc.devRef .tc main_arg8) = W (Proc.devRef .tc main_arg8) := by after_results
theorem k1_arg9 : StableHlo.after (hostOps1 (F := Ideal)) W (Proc.devRef .tc main_arg9) = W (Proc.devRef .tc main_arg9) := by after_results

end Keep

end Cert.KernelIdeal.HostStretches

end
-- ==== Proof.RefDense.lean ====
/-
  The three dense quantities of the layer as the reference program's stages compute them, read at an entry.

  Each stage is a matrix product against a transposed weight matrix followed by a comparison with a zero array: at an
  entry (n, o) the product is Σ_k X(n, k) · W(o, k), the transposed matrix read at (k, o) being W(o, k), and the
  comparison is a maximum with the float zero.  The last stage adds two such quantities and rectifies the sum.
-/
import proofs.«143045_j65051574665680_2_alg».proof.Proof.Gen.ReferenceIdeal.Read
import proofs.«143045_j65051574665680_2_alg».proof.Proof.Forms
import proofs.«143045_j65051574665680_2_alg».proof.Proof.LibMatmulNN

noncomputable section

open scoped BigOperators

namespace Cert.ReferenceIdeal.RefDense

open Idealize.ShloMosaic Idealize.ShloMosaic.ValueIdx Cert.ReferenceIdeal Cert.ReferenceIdeal.Read Cert.Forms

/-- A rectified product of a feature matrix with the transposed first weight matrix, at an entry: the sum over the
    256 input features, then the maximum with zero.  Both the node features and the neighbour features go through it. -/
theorem hn_apply (x0 : FVec Ideal S8192x256 .f32) (x3 : FVec Ideal S64x256 .f32) (n : Fin 8192) (o : Fin 64) :
    val_main_v2 (F := Ideal) x0 x3 (ix2 n o) = reluDot x0 (tr x3) n o := by
  rw [val_main_v2_apply, val_main_v1_apply, val_main_call0_v0_apply, val_main_call0_cst_apply]
  refine congrArg (fun t => max t _) (Finset.sum_congr rfl fun k _ => ?_)
  rw [val_main_v0_apply]
  have e1 : lidx_main_v1 (ix2 n o) k = ix2 n k :=
    funext fun a => Fin.ext (by match a with | ⟨0, _⟩ => rfl | ⟨1, _⟩ => rfl)
  have e2 : idx_main_v0 (ridx_main_v1 (ix2 n o) k) = ix2 o k :=
    funext fun a => Fin.ext (by match a with | ⟨0, _⟩ => rfl | ⟨1, _⟩ => rfl)
  rw [e1, e2, tr_ix2]

/-- The same stage on the second feature matrix. -/
theorem h1_apply (x1 : FVec Ideal S8192x256 .f32) (x3 : FVec Ideal S64x256 .f32) (n : Fin 8192) (o : Fin 64) :
    val_main_v5 (F := Ideal) x1 x3 (ix2 n o) = reluDot x1 (tr x3) n o := by
  rw [val_main_v5_apply, val_main_v4_apply, val_main_call1_v0_apply, val_main_call1_cst_apply]
  refine congrArg (fun t => max t _) (Finset.sum_congr rfl fun k _ => ?_)
  rw [val_main_v3_apply]
  have e1 : lidx_main_v4 (ix2 n o) k = ix2 n k :=
    funext fun a => Fin.ext (by match a with | ⟨0, _⟩ => rfl | ⟨1, _⟩ => rfl)
  have e2 : idx_main_v3 (ridx_main_v4 (ix2 n o) k) = ix2 o k :=
    funext fun a => Fin.ext (by match a with | ⟨0, _⟩ => rfl | ⟨1, _⟩ => rfl)
  rw [e1, e2, tr_ix2]

/-- The second stage: the rectified first-stage matrix times the transposed second weight matrix, rectified. -/
theorem a_apply (x1 : FVec Ideal S8192x256 .f32) (x3 : FVec Ideal S64x256 .f32) (x4 : FVec Ideal S64x64 .f32) (n : Fin 8192) (o : Fin 64) :
    val_main_v36 (F := Ideal) x1 x3 x4 (ix2 n o) = reluDot (mat (reluDot x1 (tr x3))) (tr x4) n o := by
  rw [val_main_v36_apply, val_main_v35_apply, val_main_call3_v0_apply, val_main_call3_cst_apply]
  refine congrArg (fun t => max t _) (Finset.sum_congr rfl fun k _ => ?_)
  rw [val_main_v34_apply]
  have e1 : lidx_main_v35 (ix2 n o) k = ix2 n k :=
    funext fun a => Fin.ext (by match a with | ⟨0, _⟩ => rfl | ⟨1, _⟩ => rfl)
  have e2 : idx_main_v34 (ridx_main_v35 (ix2 n o) k) = ix2 o k :=
    funext fun a => Fin.ext (by match a with | ⟨0, _⟩ => rfl | ⟨1, _⟩ => rfl)
  rw [e1, e2, h1_apply, tr_ix2, mat_ix2]

/-- The last stage: the second-stage entry plus the rectified product of the aggregated matrix with the transposed
    third weight matrix, rectified.  The aggregated matrix stays a name: only its entries enter. -/
theorem z_apply (x0 x1 : FVec Ideal S8192x256 .f32) (x2 : FVec Ideal S65536x32 .f32) (x3 : FVec Ideal S64x256 .f32) (x4 x5 : FVec Ideal S64x64 .f32) (x6 : FVec Ideal S4096x32 .f32) (x7 : FVec Ideal S4096 .f32) (x8 x9 : IVec S65536 32) (n : Fin 8192) (o : Fin 64) :
    val_main_v41 (F := Ideal) x0 x1 x2 x3 x4 x5 x6 x7 x8 x9 (ix2 n o)
      = max (val_main_v36 (F := Ideal) x1 x3 x4 (ix2 n o) + reluDot (val_main_v33 (F := Ideal) x0 x2 x3 x6 x7 x8 x9) (tr x5) n o) z0 := by
  rw [val_main_v41_apply, val_main_v40_apply, val_main_v39_apply, val_main_v38_apply, val_main_call5_v0_apply,
    val_main_call5_cst_apply, val_main_call4_v0_apply, val_main_call4_cst_apply]
  generalize val_main_v33 (F := Ideal) x0 x2 x3 x6 x7 x8 x9 = Y
  generalize val_main_v36 (F := Ideal) x1 x3 x4 (ix2 n o) = a
  refine congrArg (fun t => max (a + max t _) _) (Finset.sum_congr rfl fun k _ => ?_)
  rw [val_main_v37_apply]
  have e1 : lidx_main_v38 (ix2 n o) k = ix2 n k :=
    funext fun a => Fin.ext (by match a with | ⟨0, _⟩ => rfl | ⟨1, _⟩ => rfl)
  have e2 : idx_main_v37 (ridx_main_v38 (ix2 n o) k) = ix2 o k :=
    funext fun a => Fin.ext (by match a with | ⟨0, _⟩ => rfl | ⟨1, _⟩ => rfl)
  rw [e1, e2, tr_ix2]

end Cert.ReferenceIdeal.RefDense

end
-- ==== Proof.RefEdge.lean ====
/-
  The reference program's edge stage, read at an entry.

  The stage multiplies the edge features by the transposed edge weights over all 4096 columns, adds the bias along the
  columns, rectifies, regroups the 4096 columns as 64 groups of 64 features, and sums over the groups from a zero
  initial value.  Column 64 · i + j of the wide matrix is feature j of group i, so the entry (e, j) of the result is
  the sum over the 64 groups i of the rectified transform of row e at column 64 · i + j.
-/
import proofs.«143045_j65051574665680_2_alg».proof.Proof.Gen.ReferenceIdeal.Read
import proofs.«143045_j65051574665680_2_alg».proof.Proof.Forms

noncomputable section

open scoped BigOperators

namespace Cert.ReferenceIdeal.RefEdge

open Idealize.ShloMosaic Idealize.ShloMosaic.ValueIdx Cert.ReferenceIdeal Cert.ReferenceIdeal.Read Cert.Forms

/-- The regrouped array at (e, i, j) reads the wide matrix at row e and column 64 · i + j: the flattened position
    (e · 64 + i) · 64 + j has quotient e and remainder 64 · i + j by 4096. -/
theorem regroup_idx (e : Fin 65536) (i j : Fin 64) :
    idx_main_v12 (idx_main_v13 (ix2 e j) i) = ix2 e (col i j) :=
  funext fun a => Fin.ext (by
    have he := e.isLt
    have hi := i.isLt
    have hj := j.isLt
    match a with
    | ⟨0, _⟩ =>
      show ((e.val * 64 + i.val) * 64 + j.val) / 4096 = e.val
      omega
    | ⟨1, _⟩ =>
      show ((e.val * 64 + i.val) * 64 + j.val) % 4096 = i.val * 64 + j.val
      omega)

/-- The rectified edge transform as the reference computes it, at row e and column q of the wide matrix. -/
theorem act_apply (x2 : FVec Ideal S65536x32 .f32) (x6 : FVec Ideal S4096x32 .f32) (x7 : FVec Ideal S4096 .f32) (e : Fin 65536) (q : Fin 4096) :
    val_main_v11 (F := Ideal) x2 x6 x7 (ix2 e q) = edgeAct x2 (tr x6) (fun q => x7 (ix1 q)) e q := by
  rw [val_main_v11_apply, val_main_v10_apply, val_main_v7_apply, val_main_v9_apply, val_main_v8_apply,
    val_main_call2_v0_apply, val_main_call2_cst_apply]
  refine congrArg₂ (fun s b => max (s + b) _) (Finset.sum_congr rfl fun k _ => ?_) ?_
  · rw [val_main_v6_apply]
    have e1 : lidx_main_v7 (ix2 e q) k = ix2 e k :=
      funext fun a => Fin.ext (by match a with | ⟨0, _⟩ => rfl | ⟨1, _⟩ => rfl)
    have e2 : idx_main_v6 (ridx_main_v7 (ix2 e q) k) = ix2 q k :=
      funext fun a => Fin.ext (by match a with | ⟨0, _⟩ => rfl | ⟨1, _⟩ => rfl)
    rw [e1, e2, tr_ix2]
  · exact congrArg x7 (funext fun a => Fin.ext (by match a with | ⟨0, _⟩ => rfl))

/-- The edge stage at an entry: the sum over the 64 groups of the rectified transform at the group's column. -/
theorem s_apply (x2 : FVec Ideal S65536x32 .f32) (x6 : FVec Ideal S4096x32 .f32) (x7 : FVec Ideal S4096 .f32) (e : Fin 65536) (j : Fin 64) :
    val_main_v13 (F := Ideal) x2 x6 x7 (ix2 e j) = edgeSum x2 (tr x6) (fun q => x7 (ix1 q)) e j := by
  rw [val_main_v13_apply, val_main_cst_apply]
  show Ideal.ofBits .f32 0x00000000#32 + _ = _
  rw [Ideal.ofBits_zero_f32, zero_add]
  refine Finset.sum_congr rfl fun i _ => ?_
  rw [val_main_v12_apply, regroup_idx, act_apply]

end Cert.ReferenceIdeal.RefEdge

end
-- ==== Proof.Boundaries.lean ====
/-
  The arrays at the boundaries of the run, from the launch to the result.

  The run's buffer contents are a fold: the launch memory, a host stretch, a stage's write-backs, a stretch, a stage,
  a stretch, a stage.  Walking the fold: the first stage finds the reformatted features and transposed weights and
  leaves the reference's rectified pre-aggregation and self term; the edge stage finds the reformatted edge features,
  transposed edge weights and bias row and leaves the reference's summed edge transform; the scatter-mean stretch
  therefore leaves the reference's neighbour means; and the final stage, finding the self term, those means and the
  transposed neighbour weights, leaves the reference's result.
-/
import proofs.«143045_j65051574665680_2_alg».proof.Proof.Gen.KernelIdeal.Frame
import proofs.«143045_j65051574665680_2_alg».proof.Proof.Gen.ReferenceIdeal.Read
import proofs.«143045_j65051574665680_2_alg».proof.Proof.Forms
import proofs.«143045_j65051574665680_2_alg».proof.Proof.Blocks0
import proofs.«143045_j65051574665680_2_alg».proof.Proof.Blocks1
import proofs.«143045_j65051574665680_2_alg».proof.Proof.Blocks2
import proofs.«143045_j65051574665680_2_alg».proof.Proof.HostStretches
import proofs.«143045_j65051574665680_2_alg».proof.Proof.RefDense
import proofs.«143045_j65051574665680_2_alg».proof.Proof.RefEdge
import Idealize.ShloMosaic.Lib.Pipeline.Value
import Idealize.ShloMosaic.Lib.ValueIdx

set_option maxRecDepth 16384

noncomputable section

namespace Cert.KernelIdeal.Boundaries

open Idealize.ShloMosaic Idealize.ShloMosaic.TcCoe Idealize.ShloMosaic.ValueIdx Idealize.SL.Sem Idealize.ShloMosaic.StableHlo
open Cert.KernelIdeal Cert.KernelIdeal.Gen Cert.Forms Cert.KernelIdeal.HostStretches
open Cert.KernelIdeal.Blocks2 (ent)

section Walk

variable (m : (ℓ : Loc nD τ sig) → Buf (Elt Ideal) ℓ) (ρ : Dev nD → PrngReg) (c : Dev nD)

theorem W2_arg2 : W2 m ρ c (Proc.devRef .tc main_arg2) = m ((c : Thread nD τ).loc main_arg2) :=
  (W2_of_ne m ρ c main_arg2 (by decide)).trans (k0_arg2 (W0 m ρ c))
theorem W2_arg6 : W2 m ρ c (Proc.devRef .tc main_arg6) = m ((c : Thread nD τ).loc main_arg6) :=
  (W2_of_ne m ρ c main_arg6 (by decide)).trans (k0_arg6 (W0 m ρ c))
theorem W2_arg7 : W2 m ρ c (Proc.devRef .tc main_arg7) = m ((c : Thread nD τ).loc main_arg7) :=
  (W2_of_ne m ρ c main_arg7 (by decide)).trans (k0_arg7 (W0 m ρ c))
theorem W2_arg5 : W2 m ρ c (Proc.devRef .tc main_arg5) = m ((c : Thread nD τ).loc main_arg5) :=
  (W2_of_ne m ρ c main_arg5 (by decide)).trans (k0_arg5 (W0 m ρ c))
theorem W2_arg8 : W2 m ρ c (Proc.devRef .tc main_arg8) = m ((c : Thread nD τ).loc main_arg8) :=
  (W2_of_ne m ρ c main_arg8 (by decide)).trans (k0_arg8 (W0 m ρ c))
theorem W2_arg9 : W2 m ρ c (Proc.devRef .tc main_arg9) = m ((c : Thread nD τ).loc main_arg9) :=
  (W2_of_ne m ρ c main_arg9 (by decide)).trans (k0_arg9 (W0 m ρ c))
theorem W4_arg5 : W4 m ρ c (Proc.devRef .tc main_arg5) = m ((c : Thread nD τ).loc main_arg5) :=
  (W4_of_ne m ρ c main_arg5 (by decide)).trans ((k1_arg5 (W2 m ρ c)).trans (W2_arg5 m ρ c))
theorem W4_arg8 : W4 m ρ c (Proc.devRef .tc main_arg8) = m ((c : Thread nD τ).loc main_arg8) :=
  (W4_of_ne m ρ c main_arg8 (by decide)).trans ((k1_arg8 (W2 m ρ c)).trans (W2_arg8 m ρ c))
theorem W4_arg9 : W4 m ρ c (Proc.devRef .tc main_arg9) = m ((c : Thread nD τ).loc main_arg9) :=
  (W4_of_ne m ρ c main_arg9 (by decide)).trans ((k1_arg9 (W2 m ρ c)).trans (W2_arg9 m ρ c))

/-- When the scatter-mean stretch begins, the first stage's first output holds the reference's rectified
    pre-aggregation of the neighbour features. -/
theorem hn_arr : (W4 m ρ c (Proc.devRef .tc main_v6_0) : S8192x64.Idx → EReal)
    = Cert.ReferenceIdeal.Read.val_main_v2 (F := Ideal) (m ((c : Thread nD τ).loc main_arg0)) (m ((c : Thread nD τ).loc main_arg3)) := by
  have e : W4 m ρ c (Proc.devRef .tc main_v6_0) = Blocks0.G4 (V1 m ρ) c :=
    (W4_of_ne m ρ c main_v6_0 (by decide)).trans ((s1_keep_v6_0 (W2 m ρ c)).trans
      ((W2_arr m ρ c 4).trans (Blocks0.arr0_4 (V1 m ρ) c)))
  rw [e]
  funext i
  obtain ⟨n, o, rfl⟩ : ∃ (n : Fin 8192) (o : Fin 64), i = ix2 n o := ⟨i 0, i 1, eq_ix2 i⟩
  rw [Cert.ReferenceIdeal.RefDense.hn_apply]
  show reluDot (V1 m ρ c main_v0) (V1 m ρ c main_v3) n o = reluDot (m ((c : Thread nD τ).loc main_arg0)) (tr (m ((c : Thread nD τ).loc main_arg3))) n o
  unfold reluDot
  refine congrArg (max · z0) (Finset.sum_congr rfl fun k _ => ?_)
  exact congrArg₂ (· * ·) (s0_v0 (W0 m ρ c) n k) (s0_v3 (W0 m ρ c) k o)

/-- When the final stage begins, the first stage's second output holds the reference's self term. -/
theorem a_arr : (V5 m ρ c main_v6_1 : S8192x64.Idx → EReal)
    = Cert.ReferenceIdeal.Read.val_main_v36 (F := Ideal) (m ((c : Thread nD τ).loc main_arg1)) (m ((c : Thread nD τ).loc main_arg3)) (m ((c : Thread nD τ).loc main_arg4)) := by
  have e : V5 m ρ c main_v6_1 = Blocks0.G5 (V1 m ρ) c :=
    (s2_keep_v6_1 (W4 m ρ c)).trans ((W4_of_ne m ρ c main_v6_1 (by decide)).trans ((s1_keep_v6_1 (W2 m ρ c)).trans
      ((W2_arr m ρ c 5).trans (Blocks0.arr0_5 (V1 m ρ) c))))
  rw [e]
  funext i
  obtain ⟨n, o, rfl⟩ : ∃ (n : Fin 8192) (o : Fin 64), i = ix2 n o := ⟨i 0, i 1, eq_ix2 i⟩
  rw [Cert.ReferenceIdeal.RefDense.a_apply]
  have inner : ∀ h : Fin 64, reluDot (V1 m ρ c main_v1) (V1 m ρ c main_v3) n h = reluDot (m ((c : Thread nD τ).loc main_arg1)) (tr (m ((c : Thread nD τ).loc main_arg3))) n h := fun h => by
    unfold reluDot
    refine congrArg (max · z0) (Finset.sum_congr rfl fun k _ => ?_)
    exact congrArg₂ (· * ·) (s0_v1 (W0 m ρ c) n k) (s0_v3 (W0 m ρ c) k h)
  show max (∑ h : Fin 64, mat (reluDot (V1 m ρ c main_v1) (V1 m ρ c main_v3)) (ix2 n h) * ent (V1 m ρ c main_v5) h o) z0
    = max (∑ h : Fin 64, mat (reluDot (m ((c : Thread nD τ).loc main_arg1)) (tr (m ((c : Thread nD τ).loc main_arg3)))) (ix2 n h) * ent (tr (m ((c : Thread nD τ).loc main_arg4))) h o) z0
  refine congrArg (max · z0) (Finset.sum_congr rfl fun h _ => ?_)
  rw [mat_ix2, mat_ix2, inner h]
  exact congrArg (_ * ·) (s0_v5 (W0 m ρ c) h o)

/-- When the scatter-mean stretch begins, the edge stage's output holds the reference's summed edge transform. -/
theorem s_arr : (W4 m ρ c (Proc.devRef .tc main_v11) : S65536x64.Idx → EReal)
    = Cert.ReferenceIdeal.Read.val_main_v13 (F := Ideal) (m ((c : Thread nD τ).loc main_arg2)) (m ((c : Thread nD τ).loc main_arg6)) (m ((c : Thread nD τ).loc main_arg7)) := by
  have e : W4 m ρ c (Proc.devRef .tc main_v11) = Blocks1.G3 (V3 m ρ) c :=
    (W4_arr m ρ c 3).trans (Blocks1.arr1_3 (V3 m ρ) c)
  rw [e]
  funext i
  obtain ⟨r, j, rfl⟩ : ∃ (r : Fin 65536) (j : Fin 64), i = ix2 r j := ⟨i 0, i 1, eq_ix2 i⟩
  rw [Cert.ReferenceIdeal.RefEdge.s_apply]
  show edgeSum (V3 m ρ c main_v7) (V3 m ρ c main_v9) (fun q => ent (V3 m ρ c main_v10) (0 : Fin 1) q) r j
    = edgeSum (m ((c : Thread nD τ).loc main_arg2)) (tr (m ((c : Thread nD τ).loc main_arg6))) (fun q => ((m ((c : Thread nD τ).loc main_arg7)) : S4096.Idx → EReal) (ix1 q)) r j
  unfold edgeSum edgeAct
  refine Finset.sum_congr rfl fun i _ => congrArg (max · z0) ?_
  beta_reduce
  refine congrArg₂ (· + ·) (Finset.sum_congr rfl fun k _ => ?_) ?_
  · exact congrArg₂ (· * ·)
      ((s1_v7 (W2 m ρ c) r k).trans (congrArg (fun A : S65536x32.Idx → EReal => ent A r k) (W2_arg2 m ρ c)))
      ((s1_v9 (W2 m ρ c) k (col i j)).trans (congrArg (fun A : S4096x32.Idx → EReal => ent A (col i j) k) (W2_arg6 m ρ c)))
  · exact (s1_v10 (W2 m ρ c) (col i j)).trans (congrArg (fun A : S4096.Idx → EReal => A (ix1 (col i j))) (W2_arg7 m ρ c))

/-- When the final stage begins, the array of neighbour means holds the reference's. -/
theorem neigh_arr : (V5 m ρ c main_v31 : S8192x64.Idx → EReal)
    = Cert.ReferenceIdeal.Read.val_main_v33 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) :=
  s2_neigh (W4 m ρ c) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))
    (hn_arr m ρ c) (s_arr m ρ c) (W4_arg8 m ρ c) (W4_arg9 m ρ c)

/-- When the final stage begins, the staged neighbour weights are the transposed argument. -/
theorem wn_ent (k o : Fin 64) : ent (V5 m ρ c main_v33) k o = ent (m ((c : Thread nD τ).loc main_arg5)) o k :=
  (s2_v33 (W4 m ρ c) k o).trans (congrArg (fun A : S64x64.Idx → EReal => ent A o k) (W4_arg5 m ρ c))

/-- THE RESULT ARRAY after the run is the reference's last stage of the launch arrays. -/
theorem result_eq : (W6 m ρ c (Proc.devRef .tc main_v34) : S8192x64.Idx → EReal)
    = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W6 m ρ c (Proc.devRef .tc main_v34) = Blocks2.G3 (V5 m ρ) c from
    (W6_arr m ρ c 3).trans (Blocks2.arr2_3 (V5 m ρ) c)]
  funext i
  obtain ⟨n, o, rfl⟩ : ∃ (n : Fin 8192) (o : Fin 64), i = ix2 n o := ⟨i 0, i 1, eq_ix2 i⟩
  rw [Cert.ReferenceIdeal.RefDense.z_apply]
  show max (ent (V5 m ρ c main_v6_1) n o + reluDot (V5 m ρ c main_v31) (V5 m ρ c main_v33) n o) z0 = _
  rw [show ent (V5 m ρ c main_v6_1) n o = Cert.ReferenceIdeal.Read.val_main_v36 (F := Ideal) (m ((c : Thread nD τ).loc main_arg1)) (m ((c : Thread nD τ).loc main_arg3)) (m ((c : Thread nD τ).loc main_arg4)) (ix2 n o) from
    congrFun (a_arr m ρ c) (ix2 n o)]
  generalize Cert.ReferenceIdeal.Read.val_main_v36 (F := Ideal) (m ((c : Thread nD τ).loc main_arg1)) (m ((c : Thread nD τ).loc main_arg3)) (m ((c : Thread nD τ).loc main_arg4)) (ix2 n o) = self
  refine congrArg (fun x => max (self + x) z0) ?_
  unfold reluDot
  refine congrArg (max · z0) (Finset.sum_congr rfl fun k _ => ?_)
  exact congrArg₂ (· * ·) (congrFun (neigh_arr m ρ c) (ix2 n k)) (wn_ent m ρ c k o)

end Walk

end Cert.KernelIdeal.Boundaries

end
-- ==== Proof.lean ====
/-
  A graph layer in three dense stages against its plain reference: the two programs compute the same array.

  Both programs compute, from neighbour features, self features, edge features, four weight matrices, a bias and two
  lists of node numbers: hn = relu(h_neigh · W_preᵀ), hs = relu(h_self · W_preᵀ), the rectified edge transform
  t = relu(ef · W_edgeᵀ + b) over 4096 = 64 · 64 columns summed over its 64 groups feature by feature (s), the messages
  hn[src] · s averaged per destination node, and z = relu(relu(hs · W_selfᵀ) + relu(mean · W_neighᵀ)).  The kernel program
  runs the dense parts in three tiled stages — taking the 4096 edge columns in eight chunks of 512, folding each chunk
  by three halvings and adding the chunks into a zero accumulator — and accumulates messages and in-degrees in one
  pass over rows of 65 entries; the reference takes whole matrix products, sums the reshaped edge transform along one
  axis, and accumulates messages and in-degrees separately.  Over the extended reals, where every float operation is
  exact and a change of format changes nothing, the two agree entry by entry: the regrouped sums use only that
  addition is commutative and associative and that zero is neutral, and the two accumulations read, at each node, the
  same sums over the edges arriving there.

  The three frames are the generated runs; the idealization rewrote nothing, so its statement is trivial; the equality of
  the results is the chain of the run's boundary contents (Proof/Boundaries.lean) against the reference's generated run.
-/
import proofs.«143045_j65051574665680_2_alg».proof.Defs
import proofs.«143045_j65051574665680_2_alg».proof.Proof.Gen.Kernel
import proofs.«143045_j65051574665680_2_alg».proof.Proof.Gen.Kernel.Frame
import proofs.«143045_j65051574665680_2_alg».proof.Proof.Gen.KernelIdeal
import proofs.«143045_j65051574665680_2_alg».proof.Proof.Gen.KernelIdeal.Frame
import proofs.«143045_j65051574665680_2_alg».proof.Proof.Gen.ReferenceIdeal
import proofs.«143045_j65051574665680_2_alg».proof.Proof.Gen.ReferenceIdeal.Run
import proofs.«143045_j65051574665680_2_alg».proof.Proof.Gen.ReferenceIdeal.Read
import proofs.«143045_j65051574665680_2_alg».proof.Proof.Gen.Pre_finite_inputs
import proofs.«143045_j65051574665680_2_alg».proof.Proof.RunValue
import proofs.«143045_j65051574665680_2_alg».proof.Proof.Boundaries
import Idealize.ShloMosaic.Adequacy
import Idealize.ShloMosaic.Init

noncomputable section

namespace Cert.Proof

open Idealize.ShloMosaic Idealize.SL.Sem

/-- The kernel program as printed runs to the end without a fault and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote none of its operations. -/
theorem preserves : Cert.preserves_Kernel_KernelIdeal := trivial

set_option maxHeartbeats 1000000 in
/-- From memories that agree on the arguments both programs run to the end, and the kernel program's result array is
    the reference's last stage of the arguments: the run's last boundary contents on one side, the generated run's
    term on the other. -/
theorem algebraic : Cert.algebraic_KernelIdeal_ReferenceIdeal := by
  intro m ρ m' ρ' _ hagree
  refine ⟨fun c => Cert.KernelIdeal.Gen.W6 m ρ c (Proc.devRef .tc Cert.KernelIdeal.main_v34),
    Cert.KernelIdeal.GenP.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v41_eq, e0, e1, e2, e3, e4, e5, e6, e7, e8, e9]
  exact (Cert.KernelIdeal.Boundaries.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
